-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x14x14 : Shape := ⟨4, ![64, 128, 14, 14]⟩
abbrev S1x200x10x128 : Shape := ⟨4, ![1, 200, 10, 128]⟩
abbrev S_ : Shape := ⟨0, ![]⟩

class Facts : Prop where
  bcast_S_S64x128x14x14 : S_.BroadcastsInDim S64x128x14x14 (![] : Fin 0 → Fin S64x128x14x14.rank)
  reducesTo_S64x128x14x14_S_d0_1_2_3 : S64x128x14x14.ReducesTo [0, 1, 2, 3] S_
  h_S_ : 0 < S_.numel
  bcast_S_S1x200x10x128 : S_.BroadcastsInDim S1x200x10x128 (![] : Fin 0 → Fin S1x200x10x128.rank)
  reducesTo_S1x200x10x128_S_d0_1_2_3 : S1x200x10x128.ReducesTo [0, 1, 2, 3] S_

variable [Facts]

def fn {F : FTy → Type} [FloatOps F] (main_arg0 : FVec F S64x128x14x14 .f32) (main_arg1 : FVec F S1x200x10x128 .f32) : IVec S_ 1 :=
  let main_v0 : FVec F S64x128x14x14 .f32 := Host.absf main_arg0
  let main_cst : FVec F S_ .f32 := constant S_ .f32 0x7F800000#32
  let main_v1 : FVec F S64x128x14x14 .f32 := broadcastInDim S64x128x14x14 ![] bcast_S_S64x128x14x14 main_cst
  let main_v2 : IVec S64x128x14x14 1 := cmpf .olt main_v0 main_v1
  let main_c : IVec S_ 1 := constantI S_ 1 1#1
  let main_v3 : IVec S_ 1 := (fun x v => Host.reduce IntOp.andi x v reducesTo_S64x128x14x14_S_d0_1_2_3 h_S_) main_v2 main_c
  let main_v4 : FVec F S1x200x10x128 .f32 := Host.absf main_arg1
  let main_cst_0 : FVec F S_ .f32 := constant S_ .f32 0x7F800000#32
  let main_v5 : FVec F S1x200x10x128 .f32 := broadcastInDim S1x200x10x128 ![] bcast_S_S1x200x10x128 main_cst_0
  let main_v6 : IVec S1x200x10x128 1 := cmpf .olt main_v4 main_v5
  let main_c_1 : IVec S_ 1 := constantI S_ 1 1#1
  let main_v7 : IVec S_ 1 := (fun x v => Host.reduce IntOp.andi x v reducesTo_S1x200x10x128_S_d0_1_2_3 h_S_) main_v6 main_c_1
  let main_v8 : IVec S_ 1 := andi main_v3 main_v7
  main_v8
-- ==== Kernel.lean ====
abbrev S64x128x14x14 : Shape := ⟨4, ![64, 128, 14, 14]⟩
abbrev S1x200x10x128 : Shape := ⟨4, ![1, 200, 10, 128]⟩
abbrev S64x128x196 : Shape := ⟨3, ![64, 128, 196]⟩
abbrev S64x196x128 : Shape := ⟨3, ![64, 196, 128]⟩
abbrev S2000x128 : Shape := ⟨2, ![2000, 128]⟩
abbrev S_ : Shape := ⟨0, ![]⟩
abbrev S2000 : Shape := ⟨1, ![2000]⟩
abbrev S2000x1 : Shape := ⟨2, ![2000, 1]⟩
abbrev S1x2000 : Shape := ⟨2, ![1, 2000]⟩
abbrev S128x2000 : Shape := ⟨2, ![128, 2000]⟩
abbrev S64x1x2000 : Shape := ⟨3, ![64, 1, 2000]⟩
abbrev S8x196x128 : Shape := ⟨3, ![8, 196, 128]⟩
abbrev S8x1x2000 : Shape := ⟨3, ![8, 1, 2000]⟩
abbrev S1x196x128 : Shape := ⟨3, ![1, 196, 128]⟩
abbrev S196x128 : Shape := ⟨2, ![196, 128]⟩
abbrev S196 : Shape := ⟨1, ![196]⟩
abbrev S196x1 : Shape := ⟨2, ![196, 1]⟩
abbrev S196x2000 : Shape := ⟨2, ![196, 2000]⟩
abbrev S1x1x2000 : Shape := ⟨3, ![1, 1, 2000]⟩
abbrev S64x2000 : Shape := ⟨2, ![64, 2000]⟩

abbrev nBuf : Space → Nat
  | .hbm => 14
  | .vmem => 6
  | .smem => 0
  | _ => 0

abbrev bufTy : (tb : Table) → Fin (tcTables nBuf tb) → BufTy
  | .hbm, ⟨0, _⟩ => ⟨S64x128x14x14, .f32⟩
  | .hbm, ⟨1, _⟩ => ⟨S1x200x10x128, .f32⟩
  | .hbm, ⟨2, _⟩ => ⟨S64x128x196, .f32⟩
  | .hbm, ⟨3, _⟩ => ⟨S64x196x128, .f32⟩
  | .hbm, ⟨4, _⟩ => ⟨S2000x128, .f32⟩
  | .hbm, ⟨5, _⟩ => ⟨S2000x128, .f32⟩
  | .hbm, ⟨6, _⟩ => ⟨S_, .f32⟩
  | .hbm, ⟨7, _⟩ => ⟨S2000, .f32⟩
  | .hbm, ⟨8, _⟩ => ⟨S2000x1, .f32⟩
  | .hbm, ⟨9, _⟩ => ⟨S1x2000, .f32⟩
  | .hbm, ⟨10, _⟩ => ⟨S2000x128, .bf16⟩
  | .hbm, ⟨11, _⟩ => ⟨S128x2000, .bf16⟩
  | .hbm, ⟨12, _⟩ => ⟨S64x1x2000, .f32⟩
  | .hbm, ⟨13, _⟩ => ⟨S64x2000, .f32⟩
  | .local _ .vmem, ⟨0, _⟩ => ⟨S8x196x128, .f32⟩
  | .local _ .vmem, ⟨1, _⟩ => ⟨S8x196x128, .f32⟩
  | .local _ .vmem, ⟨2, _⟩ => ⟨S128x2000, .bf16⟩
  | .local _ .vmem, ⟨3, _⟩ => ⟨S1x2000, .f32⟩
  | .local _ .vmem, ⟨4, _⟩ => ⟨S8x1x2000, .f32⟩
  | .local _ .vmem, ⟨5, _⟩ => ⟨S8x1x2000, .f32⟩
  | _, _ => ⟨S64x128x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x196x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x128x14x14_S64x128x196 : S64x128x14x14.ShapeCasts S64x128x196
  transposes_S64x128x196_S64x196x128_0_2_1 : S64x128x196.Transposes [0, 2, 1] S64x196x128
  shapeCasts_S1x200x10x128_S2000x128 : S1x200x10x128.ShapeCasts S2000x128
  reducesTo_S2000x128_S2000_d1 : S2000x128.ReducesTo [1] S2000
  h_S_ : 0 < S_.numel
  bcast_S2000_S2000x1_0 : S2000.BroadcastsInDim S2000x1 (![0] : Fin 1 → Fin S2000x1.rank)
  shapeCasts_S2000x1_S1x2000 : S2000x1.ShapeCasts S1x2000
  bitsLt_bf16_f32 : FTy.bits .bf16 < FTy.bits .f32
  transposes_S2000x128_S128x2000_1_0 : S2000x128.Transposes [1, 0] S128x2000
  inb_S128x2000_S128x2000_0_0 : ∀ a, (![0, 0] : Fin 2 → Nat) a + S128x2000.size a ≤ S128x2000.size a
  h_S128x2000 : 0 < S128x2000.numel
  shapeCasts_S128x2000_S128x2000 : S128x2000.ShapeCasts S128x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  inb_S8x196x128_S1x196x128_0_0_0 : ∀ a, (![0, 0, 0] : Fin 3 → Nat) a + S1x196x128.size a ≤ S8x196x128.size a
  h_S1x196x128 : 0 < S1x196x128.numel
  shapeCasts_S1x196x128_S196x128 : S1x196x128.ShapeCasts S196x128
  reduces_S196x128_S196 : S196x128.Reduces [1] S196
  shapeCasts_S196_S196x1 : S196.ShapeCasts S196x1
  broadcasts_S196x1_S196x2000 : S196x1.Broadcasts S196x2000
  broadcasts_S1x2000_S196x2000 : S1x2000.Broadcasts S196x2000
  reduces_S196x2000_S2000 : S196x2000.Reduces [0] S2000
  shapeCasts_S2000_S1x2000 : S2000.ShapeCasts S1x2000
  inb_S8x1x2000_S1x1x2000_0_0_0 : ∀ a, (![0, 0, 0] : Fin 3 → Nat) a + S1x1x2000.size a ≤ S8x1x2000.size a
  h_S1x1x2000 : 0 < S1x1x2000.numel
  shapeCasts_S1x1x2000_S1x2000 : S1x1x2000.ShapeCasts S1x2000
  shapeCasts_S1x2000_S1x1x2000 : S1x2000.ShapeCasts S1x1x2000
  inb_S8x196x128_S1x196x128_1_0_0 : ∀ a, (![1, 0, 0] : Fin 3 → Nat) a + S1x196x128.size a ≤ S8x196x128.size a
  inb_S8x1x2000_S1x1x2000_1_0_0 : ∀ a, (![1, 0, 0] : Fin 3 → Nat) a + S1x1x2000.size a ≤ S8x1x2000.size a
  inb_S8x196x128_S1x196x128_2_0_0 : ∀ a, (![2, 0, 0] : Fin 3 → Nat) a + S1x196x128.size a ≤ S8x196x128.size a
  inb_S8x1x2000_S1x1x2000_2_0_0 : ∀ a, (![2, 0, 0] : Fin 3 → Nat) a + S1x1x2000.size a ≤ S8x1x2000.size a
  inb_S8x196x128_S1x196x128_3_0_0 : ∀ a, (![3, 0, 0] : Fin 3 → Nat) a + S1x196x128.size a ≤ S8x196x128.size a
  inb_S8x1x2000_S1x1x2000_3_0_0 : ∀ a, (![3, 0, 0] : Fin 3 → Nat) a + S1x1x2000.size a ≤ S8x1x2000.size a
  inb_S8x196x128_S1x196x128_4_0_0 : ∀ a, (![4, 0, 0] : Fin 3 → Nat) a + S1x196x128.size a ≤ S8x196x128.size a
  inb_S8x1x2000_S1x1x2000_4_0_0 : ∀ a, (![4, 0, 0] : Fin 3 → Nat) a + S1x1x2000.size a ≤ S8x1x2000.size a
  inb_S8x196x128_S1x196x128_5_0_0 : ∀ a, (![5, 0, 0] : Fin 3 → Nat) a + S1x196x128.size a ≤ S8x196x128.size a
  inb_S8x1x2000_S1x1x2000_5_0_0 : ∀ a, (![5, 0, 0] : Fin 3 → Nat) a + S1x1x2000.size a ≤ S8x1x2000.size a
  inb_S8x196x128_S1x196x128_6_0_0 : ∀ a, (![6, 0, 0] : Fin 3 → Nat) a + S1x196x128.size a ≤ S8x196x128.size a
  inb_S8x1x2000_S1x1x2000_6_0_0 : ∀ a, (![6, 0, 0] : Fin 3 → Nat) a + S1x1x2000.size a ≤ S8x1x2000.size a
  inb_S8x196x128_S1x196x128_7_0_0 : ∀ a, (![7, 0, 0] : Fin 3 → Nat) a + S1x196x128.size a ≤ S8x196x128.size a
  inb_S8x1x2000_S1x1x2000_7_0_0 : ∀ a, (![7, 0, 0] : Fin 3 → Nat) a + S1x1x2000.size a ≤ S8x1x2000.size a
  shapeCasts_S64x1x2000_S64x2000 : S64x1x2000.ShapeCasts S64x2000
  dot_S196x128_S128x2000_S196x2000_1_0_0_1_n_n_wf : DotDims.WF S196x128 S128x2000 S196x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x196x128.size a ≤ S64x196x128.size a
  hwx0_0 : ∀ i : grid0.Coords, EltTy.bits .f32 = 32 ∨ (Rect.block (s := S64x196x128) S8x196x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2000.size a ≤ S128x2000.size a
  hwx0_1 : ∀ i : grid0.Coords, EltTy.bits .bf16 = 32 ∨ (Rect.block (s := S128x2000) S128x2000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x2000.size a ≤ S64x1x2000.size a
  hwx0_3 : ∀ i : grid0.Coords, EltTy.bits .f32 = 32 ∨ (Rect.block (s := S64x1x2000) S8x1x2000.size (cc0_transform_3 i) (hinb0_3 i)).WholeWords (EltTy.packing .f32)

variable [Facts₀]

def dot_S196x128_S128x2000_S196x2000_1_0_0_1_n_n : DotDims S196x128 S128x2000 S196x2000 where
  lhsContracting := [1]
  rhsContracting := [0]
  lhsNonContracting := [0]
  rhsNonContracting := [1]
  lhsBatch := []
  rhsBatch := []
  wf := dot_S196x128_S128x2000_S196x2000_1_0_0_1_n_n_wf

abbrev win0_0 : Pipeline.Window sig grid0 :=
  Pipeline.Window.ofSpec (Memref.whole main_v1) S8x196x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x2000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x1x2000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128x14x14 : Shape := ⟨4, ![64, 128, 14, 14]⟩
abbrev S1x200x10x128 : Shape := ⟨4, ![1, 200, 10, 128]⟩
abbrev S64x128x196 : Shape := ⟨3, ![64, 128, 196]⟩
abbrev S64x196x128 : Shape := ⟨3, ![64, 196, 128]⟩
abbrev S1x2000x128 : Shape := ⟨3, ![1, 2000, 128]⟩
abbrev S2000x128 : Shape := ⟨2, ![2000, 128]⟩
abbrev S_ : Shape := ⟨0, ![]⟩
abbrev S64x196 : Shape := ⟨2, ![64, 196]⟩
abbrev S64x196x1 : Shape := ⟨3, ![64, 196, 1]⟩
abbrev S2000 : Shape := ⟨1, ![2000]⟩
abbrev S64x196x2000 : Shape := ⟨3, ![64, 196, 2000]⟩
abbrev S1x1x2000 : Shape := ⟨3, ![1, 1, 2000]⟩
abbrev S64x2000 : Shape := ⟨2, ![64, 2000]⟩

abbrev nBuf : Space → Nat
  | .hbm => 36
  | .vmem => 0
  | .smem => 0
  | _ => 0

abbrev bufTy : (tb : Table) → Fin (tcTables nBuf tb) → BufTy
  | .hbm, ⟨0, _⟩ => ⟨S64x128x14x14, .f32⟩
  | .hbm, ⟨1, _⟩ => ⟨S1x200x10x128, .f32⟩
  | .hbm, ⟨2, _⟩ => ⟨S64x128x196, .f32⟩
  | .hbm, ⟨3, _⟩ => ⟨S64x196x128, .f32⟩
  | .hbm, ⟨4, _⟩ => ⟨S1x2000x128, .f32⟩
  | .hbm, ⟨5, _⟩ => ⟨S2000x128, .f32⟩
  | .hbm, ⟨6, _⟩ => ⟨S64x196x128, .f32⟩
  | .hbm, ⟨7, _⟩ => ⟨S_, .f32⟩
  | .hbm, ⟨8, _⟩ => ⟨S64x196, .f32⟩
  | .hbm, ⟨9, _⟩ => ⟨S64x196x1, .f32⟩
  | .hbm, ⟨10, _⟩ => ⟨S2000x128, .f32⟩
  | .hbm, ⟨11, _⟩ => ⟨S_, .f32⟩
  | .hbm, ⟨12, _⟩ => ⟨S2000, .f32⟩
  | .hbm, ⟨13, _⟩ => ⟨S64x196x2000, .f32⟩
  | .hbm, ⟨14, _⟩ => ⟨S1x1x2000, .f32⟩
  | .hbm, ⟨15, _⟩ => ⟨S64x196x2000, .f32⟩
  | .hbm, ⟨16, _⟩ => ⟨S64x196x2000, .f32⟩
  | .hbm, ⟨17, _⟩ => ⟨S64x196x2000, .f32⟩
  | .hbm, ⟨18, _⟩ => ⟨S_, .f32⟩
  | .hbm, ⟨19, _⟩ => ⟨S64x196x2000, .f32⟩
  | .hbm, ⟨20, _⟩ => ⟨S64x196x2000, .f32⟩
  | .hbm, ⟨21, _⟩ => ⟨S64x196x2000, .f32⟩
  | .hbm, ⟨22, _⟩ => ⟨S_, .f32⟩
  | .hbm, ⟨23, _⟩ => ⟨S64x196x2000, .f32⟩
  | .hbm, ⟨24, _⟩ => ⟨S64x196x2000, .f32⟩
  | .hbm, ⟨25, _⟩ => ⟨S64x196x2000, .f32⟩
  | .hbm, ⟨26, _⟩ => ⟨S_, .f32⟩
  | .hbm, ⟨27, _⟩ => ⟨S64x196x2000, .f32⟩
  | .hbm, ⟨28, _⟩ => ⟨S64x196x2000, .f32⟩
  | .hbm, ⟨29, _⟩ => ⟨S_, .f32⟩
  | .hbm, ⟨30, _⟩ => ⟨S64x196x2000, .f32⟩
  | .hbm, ⟨31, _⟩ => ⟨S64x196x2000, .f32⟩
  | .hbm, ⟨32, _⟩ => ⟨S64x196x2000, .f32⟩
  | .hbm, ⟨33, _⟩ => ⟨S64x196x2000, .f32⟩
  | .hbm, ⟨34, _⟩ => ⟨S_, .f32⟩
  | .hbm, ⟨35, _⟩ => ⟨S64x2000, .f32⟩
  | _, _ => ⟨S64x128x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S64x128x14x14_S64x128x196 : S64x128x14x14.ShapeCasts S64x128x196
  transposes_S64x128x196_S64x196x128_0_2_1 : S64x128x196.Transposes [0, 2, 1] S64x196x128
  shapeCasts_S1x200x10x128_S1x2000x128 : S1x200x10x128.ShapeCasts S1x2000x128
  shapeCasts_S1x2000x128_S2000x128 : S1x2000x128.ShapeCasts S2000x128
  reducesTo_S64x196x128_S64x196_d2 : S64x196x128.ReducesTo [2] S64x196
  h_S_ : 0 < S_.numel
  bcast_S64x196_S64x196x1_0_1 : S64x196.BroadcastsInDim S64x196x1 (![0, 1] : Fin 2 → Fin S64x196x1.rank)
  reducesTo_S2000x128_S2000_d1 : S2000x128.ReducesTo [1] S2000
  bcast_S2000_S1x1x2000_2 : S2000.BroadcastsInDim S1x1x2000 (![2] : Fin 1 → Fin S1x1x2000.rank)
  bcast_S64x196x1_S64x196x2000_0_1_2 : S64x196x1.BroadcastsInDim S64x196x2000 (![0, 1, 2] : Fin 3 → Fin S64x196x2000.rank)
  bcast_S1x1x2000_S64x196x2000_0_1_2 : S1x1x2000.BroadcastsInDim S64x196x2000 (![0, 1, 2] : Fin 3 → Fin S64x196x2000.rank)
  bcast_S_S64x196x2000 : S_.BroadcastsInDim S64x196x2000 (![] : Fin 0 → Fin S64x196x2000.rank)
  reducesTo_S64x196x2000_S64x2000_d1 : S64x196x2000.ReducesTo [1] S64x2000
  dot_S64x196x128_S2000x128_S64x196x2000_2_1_01_0_n_n_wf : DotDims.WF S64x196x128 S2000x128 S64x196x2000 [2] [1] [0, 1] [0] [] []

variable [Facts₀]

def dot_S64x196x128_S2000x128_S64x196x2000_2_1_01_0_n_n : DotDims S64x196x128 S2000x128 S64x196x2000 where
  lhsContracting := [2]
  rhsContracting := [1]
  lhsNonContracting := [0, 1]
  rhsNonContracting := [0]
  lhsBatch := []
  rhsBatch := []
  wf := dot_S64x196x128_S2000x128_S64x196x2000_2_1_01_0_n_n_wf

class Facts : Prop extends Facts₀ where

variable [Facts]
-- ==== Proof.BodyOps.lean ====
/-
  The arithmetic of one image inside the kernel body, as a small vocabulary of named vector functions, each read at
  an index over the extended reals.

  For one image `x` (196 positions × 128 channels), the prototype matrix `pT` (128 × 2000, transposed) and the
  prototypes' squared norms `psq` (1 × 2000):
    * `rowSq x`      — the squared norm of each position: at (n, 0) it is Σ_k x(n,k)·x(n,k);
    * `rawDist`      — the raw squared distance: at (n, p) it is (Σ_k x(n,k)² + psq(0,p)) − 2·Σ_k x(n,k)·pT(k,p);
    * `colMin v`     — the minimum over the 196 positions of each column, folded from +∞: at (0, p) the fold of
                        `min` over n of v(n, p);
    * `logRatio v`   — log(√max(v,0) + 1) − log(√max(v,0) + ε) entry by entry, with a leading unit axis added.
  The body's result for the image is `logRatio (colMin (rawDist …))`.
-/
import proofs.«129197_j55980603736178_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Body

open Cert.KernelIdeal Idealize.ShloMosaic Idealize.ShloMosaic.ValueIdx
open Cert.KernelIdeal.Facts₀ Cert.KernelIdeal.Facts

variable {F : FTy → Type} [FloatOps F]

/-! ## The vocabulary, at any float instance -/

/-- The squared norm of each of the 196 positions, kept as a column. -/
def rowSq (x : FVec F S196x128 .f32) : FVec F S196x1 .f32 :=
  shapeCast S196x1 (multiReduction .add [1] S196 (mulf x x) 0x00000000#32 reduces_S196x128_S196 (.inl rfl) rfl) shapeCasts_S196_S196x1

/-- The raw squared distance of every position to every prototype: ‖x_n‖² + ‖p‖² − 2·⟨x_n, p⟩. -/
def rawDist (pT : FVec F S128x2000 .bf16) (psq : FVec F S1x2000 .f32) (x : FVec F S196x128 .f32) : FVec F S196x2000 .f32 :=
  subf (addf (broadcastTo S196x2000 (rowSq x) broadcasts_S196x1_S196x2000) (broadcastTo S196x2000 psq broadcasts_S1x2000_S196x2000))
    (mulf (broadcast S196x2000 (Scalar.ofBits .f32 0x40000000#32))
      (matmul dot_S196x128_S128x2000_S196x2000_1_0_0_1_n_n none (truncf .bf16 x bitsLt_bf16_f32) pT (constant S196x2000 .f32 0x00000000#32)))

/-- The minimum over the 196 positions, per prototype, folded from +∞. -/
def colMinVec (v : FVec F S196x2000 .f32) : FVec F S2000 .f32 :=
  multiReduction .minimumf [0] S2000 v 0x7F800000#32 reduces_S196x2000_S2000 (.inl rfl) rfl

/-- The closing chain from the column minima: clamp at zero, square root, and the difference of the two logarithms. -/
def logRatioOfMin (w : FVec F S2000 .f32) (one : F .f32) : FVec F S1x1x2000 .f32 :=
  shapeCast S1x1x2000
    (subf (log (addf (sqrt (maximumf (shapeCast S1x2000 w shapeCasts_S2000_S1x2000) (broadcast S1x2000 (Scalar.ofBits .f32 0x00000000#32)))) (broadcast S1x2000 one)))
      (log (addf (sqrt (maximumf (shapeCast S1x2000 w shapeCasts_S2000_S1x2000) (broadcast S1x2000 (Scalar.ofBits .f32 0x00000000#32)))) (broadcast S1x2000 (Scalar.ofBits .f32 0x33D6BF95#32)))))
    shapeCasts_S1x2000_S1x1x2000

/-- One image's result: the log-ratio of the clamped minimal distance, per prototype. -/
def imageResult (pT : FVec F S128x2000 .bf16) (psq : FVec F S1x2000 .f32) (z1 : Vec F S1x196x128 .f32) : FVec F S1x1x2000 .f32 :=
  logRatioOfMin (colMinVec (rawDist pT psq (shapeCast S196x128 z1 shapeCasts_S1x196x128_S196x128))) (Scalar.ofBits .f32 0x3F800000#32)

end Cert.KernelIdeal.Body

end
-- ==== Proof.LibLogRatio.lean ====
import Idealize.ShloMosaic.PureOps.Ideal
import Idealize.ShloMosaic.PureOps.Ideal.Laws
noncomputable section
namespace Cert.LogRatio
open Idealize.ShloMosaic

/-- log(√max(r,0) + 1) − log(√max(r,0) + ε), the literals as the programs print them. -/
def heatDiff (r : EReal) : EReal :=
  Ideal.log (Ideal.sqrt (max r (Ideal.ofBits .f32 0x00000000#32)) + Ideal.ofBits .f32 0x3F800000#32)
    - Ideal.log (Ideal.sqrt (max r (Ideal.ofBits .f32 0x00000000#32)) + Ideal.ofBits .f32 0x33D6BF95#32)
/-- log((√max(r,0) + 1) / (√max(r,0) + ε)). -/
def heatQuot (r : EReal) : EReal :=
  Ideal.log (Ideal.div (Ideal.sqrt (max r (Ideal.ofBits .f32 0x00000000#32)) + Ideal.ofBits .f32 0x3F800000#32)
    (Ideal.sqrt (max r (Ideal.ofBits .f32 0x00000000#32)) + Ideal.ofBits .f32 0x33D6BF95#32))

/-- The pattern 0x40000000 denotes the real number 2. -/
theorem ofBits_two : Ideal.ofBits .f32 0x40000000#32 = ((2 : ℝ) : EReal) := by
  simp [Ideal.ofBits, Ideal.ieee, -EReal.coe_mul]; norm_num
/-- The pattern 0x7F800000 denotes +∞. -/
theorem ofBits_posInf : Ideal.ofBits .f32 0x7F800000#32 = (⊤ : EReal) := by
  simp [Ideal.ofBits, Ideal.ieee]
/-- The pattern 0xFF800000 denotes −∞. -/
theorem ofBits_negInf : Ideal.ofBits .f32 0xFF800000#32 = (⊥ : EReal) := by
  simp [Ideal.ofBits, Ideal.ieee]

/-- The constant ε = 14073749 / 2^47 as a real number. -/
private def eps : ℝ := 14073749 / 140737488355328
/-- ε is positive. -/
private theorem eps_pos : 0 < eps := by unfold eps; norm_num
/-- ε is at most 1. -/
private theorem eps_le_one : eps ≤ 1 := by unfold eps; norm_num

/-- The pattern 0x00000000 denotes the real number 0. -/
private theorem ofBits_zero_real : Ideal.ofBits .f32 0x00000000#32 = ((0 : ℝ) : EReal) := by
  simp [Ideal.ofBits, Ideal.ieee]
/-- The pattern 0x3F800000 denotes the real number 1. -/
private theorem ofBits_one_real : Ideal.ofBits .f32 0x3F800000#32 = ((1 : ℝ) : EReal) := by
  simp [Ideal.ofBits, Ideal.ieee, -EReal.coe_mul]; norm_num
/-- The pattern 0x33D6BF95 denotes ε = (2^23 + 5685141) · 2^(103 − 127 − 23) = 14073749 / 2^47. -/
private theorem ofBits_eps_real : Ideal.ofBits .f32 0x33D6BF95#32 = ((eps : ℝ) : EReal) := by
  unfold eps
  simp [Ideal.ofBits, Ideal.ieee, -EReal.coe_mul]; norm_num

/-- The embedding of the reals in the extended reals commutes with binary maximum. -/
private theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The real function x ↦ log((√max(x,0) + 1) / (√max(x,0) + ε)). -/
private def ratio (x : ℝ) : ℝ :=
  Real.log ((Real.sqrt (max x 0) + 1) / (Real.sqrt (max x 0) + eps))

/-- On a real the quotient form is the real function `ratio`. -/
private theorem heatQuot_coe (x : ℝ) : heatQuot (x : EReal) = ((ratio x : ℝ) : EReal) := by
  have hd : (0 : ℝ) ≤ Real.sqrt (max x 0) := Real.sqrt_nonneg _
  have h1 : (0 : ℝ) < Real.sqrt (max x 0) + 1 := by linarith
  have he : (0 : ℝ) < Real.sqrt (max x 0) + eps := by have := eps_pos; linarith
  have hq : (0 : ℝ) < (Real.sqrt (max x 0) + 1) * (1 / (Real.sqrt (max x 0) + eps)) :=
    mul_pos h1 (one_div_pos.mpr he)
  unfold heatQuot ratio
  rw [ofBits_zero_real, ofBits_one_real, ofBits_eps_real, coe_max', Ideal.sqrt_coe,
    if_neg (not_lt.mpr (le_max_right x 0)), ← EReal.coe_add, ← EReal.coe_add,
    Ideal.div_coe (ne_of_gt he), ← EReal.coe_mul, Ideal.log_coe, if_neg (not_le.mpr hq),
    mul_one_div]

/-- On a real the difference of logarithms is the logarithm of the quotient. -/
theorem heatDiff_coe (x : ℝ) : heatDiff (x : EReal) = heatQuot (x : EReal) := by
  have hd : (0 : ℝ) ≤ Real.sqrt (max x 0) := Real.sqrt_nonneg _
  have h1 : (0 : ℝ) < Real.sqrt (max x 0) + 1 := by linarith
  have he : (0 : ℝ) < Real.sqrt (max x 0) + eps := by have := eps_pos; linarith
  rw [heatQuot_coe]
  unfold heatDiff ratio
  rw [ofBits_zero_real, ofBits_one_real, ofBits_eps_real, coe_max', Ideal.sqrt_coe,
    if_neg (not_lt.mpr (le_max_right x 0)), ← EReal.coe_add, ← EReal.coe_add,
    Ideal.log_coe, if_neg (not_le.mpr h1), Ideal.log_coe, if_neg (not_le.mpr he),
    ← EReal.coe_sub, Real.log_div (ne_of_gt h1) (ne_of_gt he)]

/-- The real function `ratio` is antitone: (d + 1)/(d + ε) = 1 + (1 − ε)/(d + ε) decreases in d ≥ 0
    as ε ≤ 1, the square root of the positive part is monotone, and the logarithm is monotone on positives. -/
private theorem ratio_antitone {a b : ℝ} (h : a ≤ b) : ratio b ≤ ratio a := by
  have hab : Real.sqrt (max a 0) ≤ Real.sqrt (max b 0) := Real.sqrt_le_sqrt (max_le_max h le_rfl)
  have hda : (0 : ℝ) ≤ Real.sqrt (max a 0) := Real.sqrt_nonneg _
  have hdb : (0 : ℝ) ≤ Real.sqrt (max b 0) := Real.sqrt_nonneg _
  have hea : (0 : ℝ) < Real.sqrt (max a 0) + eps := by have := eps_pos; linarith
  have heb : (0 : ℝ) < Real.sqrt (max b 0) + eps := by have := eps_pos; linarith
  have h1b : (0 : ℝ) < Real.sqrt (max b 0) + 1 := by linarith
  unfold ratio
  apply Real.log_le_log (div_pos h1b heb)
  rw [div_le_div_iff₀ heb hea]
  have := eps_le_one
  nlinarith [mul_nonneg (sub_nonneg.mpr hab) (sub_nonneg.mpr this)]

/-- The quotient form is antitone on the reals. -/
theorem heatQuot_antitone {a b : ℝ} (h : a ≤ b) : heatQuot (b : EReal) ≤ heatQuot (a : EReal) := by
  rw [heatQuot_coe, heatQuot_coe]
  exact EReal.coe_le_coe_iff.mpr (ratio_antitone h)

/-- THE LAW: over a nonempty finite family of reals, the difference form at the minimum (folded from +∞) is the
    maximum (folded from −∞) of the quotient form. -/
theorem heatDiff_fold_min_eq_fold_max {ι : Type*} (s : Finset ι) (hs : s.Nonempty) (x : ι → ℝ) :
    heatDiff (s.fold min (⊤ : EReal) (fun k => (x k : EReal)))
      = s.fold max (⊥ : EReal) (fun k => heatQuot (x k : EReal)) := by
  obtain ⟨k0, hk0, hmin⟩ := s.exists_min_image x hs
  have hfmin : s.fold min (⊤ : EReal) (fun k => (x k : EReal)) = (x k0 : EReal) := by
    apply le_antisymm
    · exact (Finset.fold_min_le _).mpr (Or.inr ⟨k0, hk0, le_rfl⟩)
    · exact (Finset.le_fold_min _).mpr ⟨le_top, fun k hk => EReal.coe_le_coe_iff.mpr (hmin k hk)⟩
  have hfmax : s.fold max (⊥ : EReal) (fun k => heatQuot (x k : EReal)) = heatQuot (x k0 : EReal) := by
    apply le_antisymm
    · exact (Finset.fold_max_le _).mpr ⟨bot_le, fun k hk => heatQuot_antitone (hmin k hk)⟩
    · exact (Finset.le_fold_max _).mpr (Or.inr ⟨k0, hk0, le_rfl⟩)
  rw [hfmin, hfmax, heatDiff_coe]

end Cert.LogRatio
end
-- ==== Proof.BodyApply.lean ====
/-
  The body's vocabulary (BodyOps) read at an index over the extended reals: each named vector function at a
  coordinate is the textbook expression — a sum over the 128 channels, a fold of `min` over the 196 positions.
-/
import proofs.«129197_j55980603736178_2_alg».proof.Proof.BodyOps
import proofs.«129197_j55980603736178_2_alg».proof.Proof.LibLogRatio

noncomputable section

namespace Cert.KernelIdeal.Body

open Cert.KernelIdeal Idealize.ShloMosaic Idealize.ShloMosaic.ValueIdx
open Cert.KernelIdeal.Facts₀ Cert.KernelIdeal.Facts

/-- Position `n` of the reduced index put back on the channel axis is (n, k). -/
theorem lift_row (h : S196x128.Reduces [1] S196) (n : Fin 196) (k : Fin (S196x128.size 1)) :
    h.lift (ix1 n) k = ix2 n (⟨k.val, k.isLt⟩ : Fin 128) := by
  funext c; apply Fin.ext
  match c with
  | ⟨0, _⟩ => rfl
  | ⟨1, _⟩ => rfl

/-- Prototype `p` of the reduced index put back on the position axis is (n, p). -/
theorem lift_col (h : S196x2000.Reduces [0] S2000) (p : Fin 2000) (n : Fin (S196x2000.size 0)) :
    h.lift (ix1 p) n = ix2 (⟨n.val, n.isLt⟩ : Fin 196) p := by
  funext c; apply Fin.ext
  match c with
  | ⟨0, _⟩ => rfl
  | ⟨1, _⟩ => rfl

/-- The squared norm of position `n` is the sum over the channels of the squares. -/
theorem rowSq_apply (x : FVec Ideal S196x128 .f32) (n : Fin 196) :
    rowSq x (ix2 n (0 : Fin 1)) = ∑ k : Fin 128, x (ix2 n k) * x (ix2 n k) := by
  unfold rowSq
  refine (shapeCast_apply _ shapeCasts_S196_S196x1 (ix2 n (0 : Fin 1)) (ix1 n) (by
    rw [Shape.rowMajor_val_one, Shape.rowMajor_val_two]; show n.val = n.val * 1 + 0; omega)).trans ?_
  refine (Ideal.multiReduction_add_single (mulf x x) _ reduces_S196x128_S196 _ _ (ix1 n)).trans ?_
  refine Finset.sum_congr rfl fun k _ => ?_
  rw [lift_row]
  rfl

/-- The left operand's index of the product at output (i, ·) and channel `q`: row `i 0`, column `q`. -/
theorem lhs_row (i : S196x2000.Idx) (q : dot_S196x128_S128x2000_S196x2000_1_0_0_1_n_n.contr.Idx) :
    (dot_S196x128_S128x2000_S196x2000_1_0_0_1_n_n.lhsIdx i q 0).val = (i 0).val := by
  unfold DotDims.lhsIdx
  rw [dif_neg (show ¬(0 : Fin S196x128.rank) ∈ dot_S196x128_S128x2000_S196x2000_1_0_0_1_n_n.lhsBatch by decide), dif_pos (show (0 : Fin S196x128.rank) ∈ dot_S196x128_S128x2000_S196x2000_1_0_0_1_n_n.lhsNonContracting by decide)]
  rfl
theorem lhs_chan (i : S196x2000.Idx) (q : dot_S196x128_S128x2000_S196x2000_1_0_0_1_n_n.contr.Idx) :
    (dot_S196x128_S128x2000_S196x2000_1_0_0_1_n_n.lhsIdx i q 1).val = (q ⟨0, by decide⟩).val :=
  dot_S196x128_S128x2000_S196x2000_1_0_0_1_n_n.lhsIdx_val_of_single rfl i q
/-- The right operand's index: row the channel `q`, column `i 1`. -/
theorem rhs_chan (i : S196x2000.Idx) (q : dot_S196x128_S128x2000_S196x2000_1_0_0_1_n_n.contr.Idx) :
    (dot_S196x128_S128x2000_S196x2000_1_0_0_1_n_n.rhsIdx i q 0).val = (q ⟨0, by decide⟩).val :=
  dot_S196x128_S128x2000_S196x2000_1_0_0_1_n_n.rhsIdx_val_of_single rfl i q
theorem rhs_col (i : S196x2000.Idx) (q : dot_S196x128_S128x2000_S196x2000_1_0_0_1_n_n.contr.Idx) :
    (dot_S196x128_S128x2000_S196x2000_1_0_0_1_n_n.rhsIdx i q 1).val = (i 1).val := by
  unfold DotDims.rhsIdx
  rw [dif_neg (show ¬(1 : Fin S128x2000.rank) ∈ dot_S196x128_S128x2000_S196x2000_1_0_0_1_n_n.rhsBatch by decide), dif_pos (show (1 : Fin S128x2000.rank) ∈ dot_S196x128_S128x2000_S196x2000_1_0_0_1_n_n.rhsNonContracting by decide)]
  rfl

/-- The matrix product of one image with the prototype matrix, into a zero accumulator, at (n, p): the sum over the
    128 channels of x(n,k)·pT(k,p). -/
theorem matmul_rows_apply (x : FVec Ideal S196x128 .bf16) (pT : FVec Ideal S128x2000 .bf16) (n : Fin 196) (p : Fin 2000) :
    matmul dot_S196x128_S128x2000_S196x2000_1_0_0_1_n_n none x pT (constant S196x2000 .f32 0x00000000#32) (ix2 n p)
      = ∑ k : Fin 128, x (ix2 n k) * pT (ix2 k p) := by
  simp only [matmul]
  rw [Ideal.matmul_constant_zero_apply, ← Equiv.sum_comp (ValueIdx.contrEquiv1 dot_S196x128_S128x2000_S196x2000_1_0_0_1_n_n 128 rfl rfl).symm]
  refine Finset.sum_congr rfl fun k _ => ?_
  have hk := ValueIdx.contrEquiv1_symm_val dot_S196x128_S128x2000_S196x2000_1_0_0_1_n_n 128 rfl rfl k
  have el : dot_S196x128_S128x2000_S196x2000_1_0_0_1_n_n.lhsIdx (ix2 n p) ((ValueIdx.contrEquiv1 dot_S196x128_S128x2000_S196x2000_1_0_0_1_n_n 128 rfl rfl).symm k) = ix2 n k := funext fun a => Fin.ext (by
    match a with
    | ⟨0, _⟩ => exact lhs_row _ _
    | ⟨1, _⟩ => exact (lhs_chan _ _).trans hk)
  have er : dot_S196x128_S128x2000_S196x2000_1_0_0_1_n_n.rhsIdx (ix2 n p) ((ValueIdx.contrEquiv1 dot_S196x128_S128x2000_S196x2000_1_0_0_1_n_n 128 rfl rfl).symm k) = ix2 k p := funext fun a => Fin.ext (by
    match a with
    | ⟨0, _⟩ => exact (rhs_chan _ _).trans hk
    | ⟨1, _⟩ => exact rhs_col _ _)
  rw [el, er]

/-- The raw squared distance at (n, p): ‖x_n‖² + ‖p‖² − 2·⟨x_n, p⟩, every sum over the 128 channels. -/
theorem rawDist_apply (pT : FVec Ideal S128x2000 .bf16) (psq : FVec Ideal S1x2000 .f32) (x : FVec Ideal S196x128 .f32) (n : Fin 196) (p : Fin 2000) :
    rawDist pT psq x (ix2 n p)
      = ((∑ k : Fin 128, x (ix2 n k) * x (ix2 n k)) + psq (ix2 (0 : Fin 1) p))
        - Ideal.ofBits .f32 0x40000000#32 * ∑ k : Fin 128, x (ix2 n k) * pT (ix2 k p) := by
  unfold rawDist
  rw [subf_apply, addf_apply, mulf_apply, broadcast_apply, matmul_rows_apply,
    broadcastTo_apply (rowSq x) broadcasts_S196x1_S196x2000 (ix2 n p) (ix2 n (0 : Fin 1)) (fun a => by
      match a with
      | ⟨0, _⟩ => show n.val = if (196 : Nat) = 1 then 0 else n.val; rw [if_neg (by decide)]
      | ⟨1, _⟩ => show (0 : Nat) = if (1 : Nat) = 1 then 0 else p.val; rw [if_pos rfl]),
    broadcastTo_apply psq broadcasts_S1x2000_S196x2000 (ix2 n p) (ix2 (0 : Fin 1) p) (fun a => by
      match a with
      | ⟨0, _⟩ => show (0 : Nat) = if (1 : Nat) = 1 then 0 else n.val; rw [if_pos rfl]
      | ⟨1, _⟩ => show p.val = if (2000 : Nat) = 1 then 0 else p.val; rw [if_neg (by decide)]),
    rowSq_apply]
  rfl

/-- The column minimum at prototype `p`: the fold of `min` from the +∞ pattern over the 196 positions. -/
theorem colMinVec_apply (v : FVec Ideal S196x2000 .f32) (p : Fin 2000) :
    colMinVec v (ix1 p) = (Finset.univ : Finset (Fin 196)).fold min (Ideal.ofBits .f32 0x7F800000#32) (fun n => v (ix2 n p)) := by
  unfold colMinVec
  refine (multiReduction_minimumf_eq_fold v 0x7F800000#32 reduces_S196x2000_S2000 (.inl rfl) rfl (ix1 p)).trans ?_
  refine (reduces_S196x2000_S2000.fold_filter_drop_single _ _ v (ix1 p)).trans ?_
  have hf : (v ∘ reduces_S196x2000_S2000.lift (ix1 p)) = fun n : Fin 196 => v (ix2 n p) :=
    funext fun n => congrArg v (lift_col reduces_S196x2000_S2000 p n)
  exact congrArg (fun f => Finset.fold min (Ideal.ofBits .f32 0x7F800000#32) f (Finset.univ : Finset (Fin 196))) hf

/-- The closing chain at prototype `p`: log(√max(w_p,0) + one) − log(√max(w_p,0) + ε). -/
theorem logRatioOfMin_apply (w : FVec Ideal S2000 .f32) (one : Ideal .f32) (p : Fin 2000) :
    logRatioOfMin w one (ix3 (0 : Fin 1) (0 : Fin 1) p)
      = Ideal.log (Ideal.sqrt (max (w (ix1 p)) (Ideal.ofBits .f32 0x00000000#32)) + one)
        - Ideal.log (Ideal.sqrt (max (w (ix1 p)) (Ideal.ofBits .f32 0x00000000#32)) + Ideal.ofBits .f32 0x33D6BF95#32) := by
  unfold logRatioOfMin
  refine (shapeCast_apply _ shapeCasts_S1x2000_S1x1x2000 (ix3 (0 : Fin 1) (0 : Fin 1) p) (ix2 (0 : Fin 1) p) (by
    rw [Shape.rowMajor_val_two, Shape.rowMajor_val_three]; show 0 * 2000 + p.val = (0 * 1 + 0) * 2000 + p.val; omega)).trans ?_
  have e : shapeCast S1x2000 w shapeCasts_S2000_S1x2000 (ix2 (0 : Fin 1) p) = w (ix1 p) :=
    shapeCast_apply w shapeCasts_S2000_S1x2000 (ix2 (0 : Fin 1) p) (ix1 p) (by
      rw [Shape.rowMajor_val_one, Shape.rowMajor_val_two]; show p.val = 0 * 2000 + p.val; omega)
  show FloatOps.subf (FloatOps.log (FloatOps.addf (FloatOps.sqrt (FloatOps.maximumf (shapeCast S1x2000 w shapeCasts_S2000_S1x2000 (ix2 (0 : Fin 1) p)) _)) _))
      (FloatOps.log (FloatOps.addf (FloatOps.sqrt (FloatOps.maximumf (shapeCast S1x2000 w shapeCasts_S2000_S1x2000 (ix2 (0 : Fin 1) p)) _)) _)) = _
  rw [e]
  rfl

/-- ONE IMAGE'S RESULT at prototype `p`: the difference of logarithms at the square root of the clamped minimum, over the
    196 positions, of the raw squared distance — every sum over the 128 channels, the literals as printed. -/
theorem imageResult_apply (pT : FVec Ideal S128x2000 .bf16) (psq : FVec Ideal S1x2000 .f32) (z1 : FVec Ideal S1x196x128 .f32) (p : Fin 2000) :
    imageResult pT psq z1 (ix3 (0 : Fin 1) (0 : Fin 1) p)
      = Cert.LogRatio.heatDiff ((Finset.univ : Finset (Fin 196)).fold min (Ideal.ofBits .f32 0x7F800000#32) (fun n =>
          ((∑ k : Fin 128, z1 (ix3 (0 : Fin 1) n k) * z1 (ix3 (0 : Fin 1) n k)) + psq (ix2 (0 : Fin 1) p))
            - Ideal.ofBits .f32 0x40000000#32 * ∑ k : Fin 128, z1 (ix3 (0 : Fin 1) n k) * pT (ix2 k p))) := by
  unfold imageResult
  refine (logRatioOfMin_apply _ _ p).trans ?_
  rw [colMinVec_apply]
  have e : ∀ (n : Fin 196) (k : Fin 128), shapeCast S196x128 z1 shapeCasts_S1x196x128_S196x128 (ix2 n k) = z1 (ix3 (0 : Fin 1) n k) := fun n k =>
    shapeCast_apply z1 shapeCasts_S1x196x128_S196x128 (ix2 n k) (ix3 (0 : Fin 1) n k) (by
      rw [Shape.rowMajor_val_three, Shape.rowMajor_val_two]; show (0 * 196 + n.val) * 128 + k.val = n.val * 128 + k.val; omega)
  have hf : (fun n : Fin 196 => rawDist pT psq (shapeCast S196x128 z1 shapeCasts_S1x196x128_S196x128) (ix2 n p))
      = fun n : Fin 196 => ((∑ k : Fin 128, z1 (ix3 (0 : Fin 1) n k) * z1 (ix3 (0 : Fin 1) n k)) + psq (ix2 (0 : Fin 1) p))
            - Ideal.ofBits .f32 0x40000000#32 * ∑ k : Fin 128, z1 (ix3 (0 : Fin 1) n k) * pT (ix2 k p) := by
    funext n
    rw [rawDist_apply]
    simp only [e]
  rw [hf]
  rfl

end Cert.KernelIdeal.Body

end
-- ==== Proof.BodyPayloads.lean ====
/-
  The printed body stores eight images, and the printer cuts each image's arithmetic into payload terms at
  different places; every one of the eight is the same function `imageResult` of the resident prototype matrix, the
  resident squared norms and that image's slice of the block. Each equation holds by unfolding.
-/
import proofs.«129197_j55980603736178_2_alg».proof.Proof.Gen.KernelIdeal.Skeleton
import proofs.«129197_j55980603736178_2_alg».proof.Proof.BodyOps

noncomputable section

namespace Cert.KernelIdeal.Body

open Cert.KernelIdeal Cert.KernelIdeal.Gen Idealize.ShloMosaic

variable {F : FTy → Type} [FloatOps F]

/-- Image 0. -/
theorem pay_img0 (v0 : Vec F S128x2000 .bf16) (v2 : Vec F S1x2000 .f32) (v4 : Vec F S1x196x128 .f32) :
    k0_pay5 v0 v2 v4 = imageResult (k0_pay3 v0) (k0_pay4 v2) v4 := rfl
/-- Image 1. -/
theorem pay_img1 (v1 : FVec F S128x2000 .bf16) (v3 : FVec F S1x2000 .f32) (v : Vec F S1x196x128 .f32) :
    k0_pay8 v1 v3 (k0_pay6 v) (k0_pay7 v) = imageResult v1 v3 v := rfl
/-- Image 2. -/
theorem pay_img2 (v1 : FVec F S128x2000 .bf16) (v3 : FVec F S1x2000 .f32) (v : Vec F S1x196x128 .f32) :
    k0_pay10 (k0_pay9 v1 v3 v) (Scalar.ofBits .f32 0x3F800000#32) = imageResult v1 v3 v := rfl
/-- Image 3. -/
theorem pay_img3 (v1 : FVec F S128x2000 .bf16) (v3 : FVec F S1x2000 .f32) (v : Vec F S1x196x128 .f32) :
    k0_pay11 v1 v3 v = imageResult v1 v3 v := rfl
/-- Image 4. -/
theorem pay_img4 (v1 : FVec F S128x2000 .bf16) (v3 : FVec F S1x2000 .f32) (v : Vec F S1x196x128 .f32) :
    k0_pay12 v1 v3 v = imageResult v1 v3 v := rfl
/-- Image 5. -/
theorem pay_img5 (v1 : FVec F S128x2000 .bf16) (v3 : FVec F S1x2000 .f32) (v : Vec F S1x196x128 .f32) :
    k0_pay14 (k0_pay13 v1 v3 v) = imageResult v1 v3 v := rfl
/-- Image 6. -/
theorem pay_img6 (v1 : FVec F S128x2000 .bf16) (v3 : FVec F S1x2000 .f32) (v : Vec F S1x196x128 .f32) :
    k0_pay1 (k0_pay15 v1 v3 v) = imageResult v1 v3 v := rfl
/-- Image 7. -/
theorem pay_img7 (v1 : FVec F S128x2000 .bf16) (v3 : FVec F S1x2000 .f32) (v : Vec F S1x196x128 .f32) :
    k0_pay2 v1 v3 v = imageResult v1 v3 v := rfl

end Cert.KernelIdeal.Body

end
-- ==== Proof.BodyBlock.lean ====
/-
  What the body leaves in the output block: its eight stores, one image each, are eight slices of ONE function of the
  block index. At block index (b, 0, p) the block holds image `b`'s log-ratio for prototype `p`, computed from row
  `b` of the image block, the resident prototype matrix and the resident squared norms.
-/
import proofs.«129197_j55980603736178_2_alg».proof.Proof.Gen.KernelIdeal.Frame
import proofs.«129197_j55980603736178_2_alg».proof.Proof.BodyApply
import proofs.«129197_j55980603736178_2_alg».proof.Proof.BodyPayloads

noncomputable section

namespace Cert.KernelIdeal.Body

open Cert.KernelIdeal Cert.KernelIdeal.Gen Idealize.ShloMosaic Idealize.ShloMosaic.ValueIdx
open Cert.KernelIdeal.Facts₀ Cert.KernelIdeal.Facts

/-- Image `b`'s result for prototype `p`, from the image block `x0` (8 × 196 × 128), the prototype matrix `x1`
    (128 × 2000) and the squared norms `x2` (1 × 2000): the difference of logarithms at the square root of the clamped
    minimum over the 196 positions of ‖x0(b,n,·)‖² + x2(0,p) − 2·⟨x0(b,n,·), x1(·,p)⟩. -/
def imageAt (x0 : FVec Ideal S8x196x128 .f32) (x1 : FVec Ideal S128x2000 .bf16) (x2 : FVec Ideal S1x2000 .f32) (b : Fin 8) (p : Fin 2000) : EReal :=
  Cert.LogRatio.heatDiff ((Finset.univ : Finset (Fin 196)).fold min (Ideal.ofBits .f32 0x7F800000#32) (fun n =>
    ((∑ k : Fin 128, x0 (ix3 b n k) * x0 (ix3 b n k)) + x2 (ix2 (0 : Fin 1) p))
      - Ideal.ofBits .f32 0x40000000#32 * ∑ k : Fin 128, x0 (ix3 b n k) * x1 (ix2 k p)))

/-- The block as one function of its index (b, 0, p). -/
def blockFn (x0 : FVec Ideal S8x196x128 .f32) (x1 : FVec Ideal S128x2000 .bf16) (x2 : FVec Ideal S1x2000 .f32) : S8x1x2000.Idx → EReal :=
  fun y => imageAt x0 x1 x2 ⟨(y 0).val, (y 0).isLt⟩ ⟨(y 2).val, (y 2).isLt⟩

theorem zeros2 : (![0, 0] : Fin 2 → Nat) = fun _ => 0 := funext fun a => by fin_cases a <;> rfl

/-- The resident operands are loaded whole and cast to their own shapes: they are the staged arrays themselves. -/
theorem resident_pT (x1 : FVec Ideal S128x2000 .bf16) : k0_pay3 (View.ld x1 r0_0) = x1 := by
  unfold k0_pay3
  rw [shapeCast_self, View.ld_unit_zero (S := S128x2000) zeros2]
theorem resident_psq (x2 : FVec Ideal S1x2000 .f32) : k0_pay4 (View.ld x2 r0_1) = x2 := by
  unfold k0_pay4
  rw [shapeCast_self, View.ld_unit_zero (S := S1x2000) zeros2]

/-- ONE STORE: the image loaded through the rectangle at row `a` of the image block gives, at the store's local index
    `x`, the block function at the store rectangle's image of `x`. -/
theorem piece_eq (a : Nat) (ha : a < 8)
    (inbL : ∀ d, (![a, 0, 0] : Fin 3 → Nat) d + S1x196x128.size d ≤ S8x196x128.size d)
    (inbS : ∀ d, (![a, 0, 0] : Fin 3 → Nat) d + S1x1x2000.size d ≤ S8x1x2000.size d)
    (x0 : FVec Ideal S8x196x128 .f32) (x1 : FVec Ideal S128x2000 .bf16) (x2 : FVec Ideal S1x2000 .f32) (x : S1x1x2000.Idx) :
    imageResult x1 x2 (View.ld x0 (Rect.unit (s := S8x196x128) ![a, 0, 0] S1x196x128.size inbL)) x
      = blockFn x0 x1 x2 ((Rect.unit (s := S8x1x2000) ![a, 0, 0] S1x1x2000.size inbS).emb x) := by
  have hx : x = ix3 (0 : Fin 1) (0 : Fin 1) (⟨(x 2).val, (x 2).isLt⟩ : Fin 2000) := by
    funext d; apply Fin.ext
    match d with
    | ⟨0, _⟩ => have h1 : (x 0).val < 1 := (x 0).isLt; show (x 0).val = 0; omega
    | ⟨1, _⟩ => have h1 : (x 1).val < 1 := (x 1).isLt; show (x 1).val = 0; omega
    | ⟨2, _⟩ => rfl
  have hld : ∀ (n : Fin 196) (k : Fin 128),
      (View.ld x0 (Rect.unit (s := S8x196x128) ![a, 0, 0] S1x196x128.size inbL) : Vec Ideal S1x196x128 .f32) (ix3 (0 : Fin 1) n k) = x0 (ix3 (⟨a, ha⟩ : Fin 8) n k) := fun n k => by
    show x0 ((Rect.unit (s := S8x196x128) ![a, 0, 0] S1x196x128.size inbL).emb (ix3 (0 : Fin 1) n k)) = _
    refine congrArg x0 (funext fun d => Fin.ext ?_)
    match d with
    | ⟨0, _⟩ => show a + 1 * 0 = a; omega
    | ⟨1, _⟩ => show 0 + 1 * n.val = n.val; omega
    | ⟨2, _⟩ => show 0 + 1 * k.val = k.val; omega
  have hb : (⟨(((Rect.unit (s := S8x1x2000) ![a, 0, 0] S1x1x2000.size inbS).emb x) 0).val, (((Rect.unit (s := S8x1x2000) ![a, 0, 0] S1x1x2000.size inbS).emb x) 0).isLt⟩ : Fin 8) = ⟨a, ha⟩ := by
    apply Fin.ext
    have h1 : (x 0).val < 1 := (x 0).isLt
    show a + 1 * (x 0).val = a
    omega
  have hp : (⟨(((Rect.unit (s := S8x1x2000) ![a, 0, 0] S1x1x2000.size inbS).emb x) 2).val, (((Rect.unit (s := S8x1x2000) ![a, 0, 0] S1x1x2000.size inbS).emb x) 2).isLt⟩ : Fin 2000) = ⟨(x 2).val, (x 2).isLt⟩ := by
    apply Fin.ext
    show 0 + 1 * (x 2).val = (x 2).val
    omega
  unfold blockFn
  rw [hb, hp]
  conv_lhs => rw [hx]
  rw [imageResult_apply]
  unfold imageAt
  simp only [hld]

/-- THE BLOCK: what the body leaves in the output block, from the three input blocks, is the block function — each of
    the eight stores is its slice of it, and the eight stores tile the block. -/
theorem out_block_eq (x0 : FVec Ideal S8x196x128 .f32) (x1 : FVec Ideal S128x2000 .bf16) (x2 : FVec Ideal S1x2000 .f32) :
    out0_3 (F := Ideal) x0 x1 x2 = blockFn x0 x1 x2 := by
  funext y
  unfold out0_3
  refine View.canon_apply_of_pieces (Val := Elt Ideal) (blockFn x0 x1 x2) _ ?_ y (cover0_3 _ _ _ _ _ _ _ _ y)
  intro p hp
  simp only [List.mem_cons, List.mem_nil_iff, or_false] at hp
  rcases hp with rfl | rfl | rfl | rfl | rfl | rfl | rfl | rfl
  · intro x; dsimp only
    rw [resident_pT, resident_psq, pay_img7]
    exact piece_eq 7 (by decide) _ _ x0 x1 x2 x
  · intro x; dsimp only
    rw [resident_pT, resident_psq, pay_img6]
    exact piece_eq 6 (by decide) _ _ x0 x1 x2 x
  · intro x; dsimp only
    rw [resident_pT, resident_psq, pay_img5]
    exact piece_eq 5 (by decide) _ _ x0 x1 x2 x
  · intro x; dsimp only
    rw [resident_pT, resident_psq, pay_img4]
    exact piece_eq 4 (by decide) _ _ x0 x1 x2 x
  · intro x; dsimp only
    rw [resident_pT, resident_psq, pay_img3]
    exact piece_eq 3 (by decide) _ _ x0 x1 x2 x
  · intro x; dsimp only
    rw [resident_pT, resident_psq, pay_img2]
    exact piece_eq 2 (by decide) _ _ x0 x1 x2 x
  · intro x; dsimp only
    rw [resident_pT, resident_psq, pay_img1]
    exact piece_eq 1 (by decide) _ _ x0 x1 x2 x
  · intro x; dsimp only
    rw [pay_img0, resident_pT, resident_psq]
    exact piece_eq 0 (by decide) _ _ x0 x1 x2 x

end Cert.KernelIdeal.Body

end
-- ==== Proof.KernelHost.lean ====
/-
  The arrays the region stages, as the host operations before it leave them, as functions of the two argument arrays:
    * the image array  zf = transpose(reshape z): [64, 196, 128];
    * the prototype matrix, transposed, pT(k, p) = pm(p, k) with pm = reshape prototypes: [2000, 128];
    * the prototypes' squared norms psq(0, p) = 0 + Σ_k pm(p,k)·pm(p,k).
-/
import proofs.«129197_j55980603736178_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo Idealize.ShloMosaic.ValueIdx

/-- The images re-laid: [64, 128, 14, 14] → [64, 128, 196] → [64, 196, 128]. -/
def zfOf (Z : FVec Ideal S64x128x14x14 .f32) : FVec Ideal S64x196x128 .f32 :=
  transpose S64x196x128 [0, 2, 1] (shapeCast S64x128x196 Z shapeCasts_S64x128x14x14_S64x128x196) transposes_S64x128x196_S64x196x128_0_2_1

/-- The prototypes as a matrix: [1, 200, 10, 128] → [2000, 128]. -/
def pmOf (P : FVec Ideal S1x200x10x128 .f32) : FVec Ideal S2000x128 .f32 :=
  shapeCast S2000x128 P shapeCasts_S1x200x10x128_S2000x128

/-- The prototype matrix in the product's layout: narrowed (the identity on extended reals) and transposed. -/
def pTOf (P : FVec Ideal S1x200x10x128 .f32) : FVec Ideal S128x2000 .bf16 :=
  transpose S128x2000 [1, 0] (truncf .bf16 (pmOf P) bitsLt_bf16_f32) transposes_S2000x128_S128x2000_1_0

/-- The prototypes' squared norms as one row. -/
def psqOf (P : FVec Ideal S1x200x10x128 .f32) : FVec Ideal S1x2000 .f32 :=
  shapeCast S1x2000 (broadcastInDim S2000x1 ![0] bcast_S2000_S2000x1_0
    (Host.reduceAdd (F := Ideal) (mulf (pmOf P) (pmOf P)) (constant (F := Ideal) S_ .f32 0x00000000#32) reducesTo_S2000x128_S2000_d1 h_S_)) shapeCasts_S2000x1_S1x2000

variable (m : (ℓ : Loc nD τ sig) → Buf (Elt Ideal) ℓ)

/-- The image window's array as the region finds it. -/
theorem V_images (c : Dev nD) : (V m c main_v1 : S64x196x128.Idx → EReal) = zfOf (m ((c : Thread nD τ).loc main_arg0)) := by
  show StableHlo.after hostOps0 (fun b => m (c, b)) (Proc.devRef .tc main_v1) = _
  after_results
  rfl

/-- The prototype-matrix window's array as the region finds it. -/
theorem V_protoT (c : Dev nD) : (V m c main_v8 : S128x2000.Idx → EReal) = pTOf (m ((c : Thread nD τ).loc main_arg1)) := by
  show StableHlo.after hostOps0 (fun b => m (c, b)) (Proc.devRef .tc main_v8) = _
  after_results
  rfl

/-- The squared-norm window's array as the region finds it. -/
theorem V_protoSq (c : Dev nD) : (V m c main_v6 : S1x2000.Idx → EReal) = psqOf (m ((c : Thread nD τ).loc main_arg1)) := by
  show StableHlo.after hostOps0 (fun b => m (c, b)) (Proc.devRef .tc main_v6) = _
  after_results
  rfl

end Cert.KernelIdeal.HostSide

end
-- ==== Proof.KernelArray.lean ====
/-
  From blocks to the array. Grid point `t` (of 8) handles images 8t … 8t+7: its image block is rows 8t … 8t+7 of the image
  array, the prototype matrix and the squared norms are staged whole, and the block it writes back is rows 8t … 8t+7 of
  ONE whole-array function of the three staged arrays. The eight blocks tile the output array, so the array ends
  holding that function.
-/
import proofs.«129197_j55980603736178_2_alg».proof.Proof.BodyBlock
import proofs.«129197_j55980603736178_2_alg».proof.Proof.KernelHost

set_option maxRecDepth 16384

noncomputable section

namespace Cert.KernelIdeal.ArrayValue

open Cert.KernelIdeal Cert.KernelIdeal.Gen Cert.KernelIdeal.Body Idealize.ShloMosaic Idealize.ShloMosaic.TcCoe Idealize.SL.Sem Idealize.ShloMosaic.ValueIdx
open Idealize.ShloMosaic.Pipeline (Dat Cfg Window)

/-- Image `b` (of 64) against prototype `p`, from the staged arrays: the difference of logarithms at the square root of
    the clamped minimum over the 196 positions of ‖zf(b,n,·)‖² + psq(0,p) − 2·⟨zf(b,n,·), pT(·,p)⟩. -/
def distAt (zf : FVec Ideal S64x196x128 .f32) (pT : FVec Ideal S128x2000 .bf16) (psq : FVec Ideal S1x2000 .f32) (b : Fin 64) (p : Fin 2000) : EReal :=
  Cert.LogRatio.heatDiff ((Finset.univ : Finset (Fin 196)).fold min (Ideal.ofBits .f32 0x7F800000#32) (fun n =>
    ((∑ k : Fin 128, zf (ix3 b n k) * zf (ix3 b n k)) + psq (ix2 (0 : Fin 1) p))
      - Ideal.ofBits .f32 0x40000000#32 * ∑ k : Fin 128, zf (ix3 b n k) * pT (ix2 k p)))

/-- The output array [64, 1, 2000] as one function of the staged arrays. -/
def arrFn (zf : FVec Ideal S64x196x128 .f32) (pT : FVec Ideal S128x2000 .bf16) (psq : FVec Ideal S1x2000 .f32) : S64x1x2000.Idx → EReal :=
  fun i => distAt zf pT psq ⟨(i 0).val, (i 0).isLt⟩ ⟨(i 2).val, (i 2).isLt⟩

/-- A block function and the array function agree at a block index `y` and an array index `i` when the image block's
    row `y 0` is the image array's row `i 0`, the other two operands are the same arrays, and the prototype coordinates agree. -/
theorem block_vs_array (x0 : FVec Ideal S8x196x128 .f32) (x1 : FVec Ideal S128x2000 .bf16) (x2 : FVec Ideal S1x2000 .f32)
    (zf : FVec Ideal S64x196x128 .f32) (pT : FVec Ideal S128x2000 .bf16) (psq : FVec Ideal S1x2000 .f32)
    (y : S8x1x2000.Idx) (i : S64x1x2000.Idx)
    (h0 : ∀ (n : Fin 196) (k : Fin 128), x0 (ix3 (⟨(y 0).val, (y 0).isLt⟩ : Fin 8) n k) = zf (ix3 (⟨(i 0).val, (i 0).isLt⟩ : Fin 64) n k))
    (h1 : x1 = pT) (h2 : x2 = psq) (hp : (y 2).val = (i 2).val) :
    blockFn x0 x1 x2 y = arrFn zf pT psq i := by
  subst h1 h2
  have hp' : (⟨(y 2).val, (y 2).isLt⟩ : Fin 2000) = ⟨(i 2).val, (i 2).isLt⟩ := Fin.ext hp
  unfold blockFn arrFn imageAt distAt
  rw [hp']
  simp only [h0]

variable (m : (ℓ : Loc nD τ sig) → Buf (Elt Ideal) ℓ)

/-- The printed index maps, decided over the 8 grid points: the image window and the output window are at block `t` on
    their leading axis and at block 0 elsewhere; the two resident windows are at block 0. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The prototype matrix's block at every point is the whole staged array. -/
theorem iblk_protoT (c : Dev nD) (t : Fin cfg0.N) : iblk m c 1 t = V m c main_v8 := by
  obtain ⟨-, -, -, e3, e4, -, -, -, -, -⟩ := idx_facts t
  funext y
  show V m c main_v8 (((cfg0.win 1).blk t).view.emb y) = V m c main_v8 y
  refine congrArg (V m c main_v8) (funext fun a => Fin.ext ?_)
  match a with
  | ⟨0, _⟩ => show win0_1.index t (0 : Fin 2) * 128 + 1 * (y 0).val = (y 0).val; omega
  | ⟨1, _⟩ => show win0_1.index t (1 : Fin 2) * 2000 + 1 * (y 1).val = (y 1).val; omega

/-- The squared norms' block at every point is the whole staged array. -/
theorem iblk_protoSq (c : Dev nD) (t : Fin cfg0.N) : iblk m c 2 t = V m c main_v6 := by
  obtain ⟨-, -, -, -, -, e5, e6, -, -, -⟩ := idx_facts t
  funext y
  show V m c main_v6 (((cfg0.win 2).blk t).view.emb y) = V m c main_v6 y
  refine congrArg (V m c main_v6) (funext fun a => Fin.ext ?_)
  match a with
  | ⟨0, _⟩ => show win0_2.index t (0 : Fin 2) * 1 + 1 * (y 0).val = (y 0).val; omega
  | ⟨1, _⟩ => show win0_2.index t (1 : Fin 2) * 2000 + 1 * (y 1).val = (y 1).val; omega

/-- WHAT POINT `t` WRITES BACK is block `t` of the array function of the staged arrays. -/
theorem flushed_eq (c : Dev nD) (t : Fin cfg0.N) :
    (dats m 0 c).flushed 3 t = ((cfg0.win 3).blk t).view.read (Elt Ideal) (arrFn (V m c main_v1) (V m c main_v8) (V m c main_v6)) := by
  show (cfg0.win 3).cut (grid0.coords t) ((dats m 0 c).after 3 t) = _
  rw [after0_3, out_block_eq (iblk m c 0 t) (iblk m c 1 t) (iblk m c 2 t)]
  obtain ⟨e0, e1, e2, -, -, -, -, e7, e8, e9⟩ := idx_facts t
  funext j
  show blockFn (iblk m c 0 t) (iblk m c 1 t) (iblk m c 2 t) j = arrFn (V m c main_v1) (V m c main_v8) (V m c main_v6) (((cfg0.win 3).blk t).view.emb j)
  refine block_vs_array (iblk m c 0 t) (iblk m c 1 t) (iblk m c 2 t) (V m c main_v1) (V m c main_v8) (V m c main_v6) j (((cfg0.win 3).blk t).view.emb j) ?_ (iblk_protoT m c t) (iblk_protoSq m c t) ?_
  · intro n k
    show V m c main_v1 (((cfg0.win 0).blk t).view.emb (ix3 (⟨(j 0).val, (j 0).isLt⟩ : Fin 8) n k)) = V m c main_v1 _
    refine congrArg (V m c main_v1) (funext fun a => Fin.ext ?_)
    match a with
    | ⟨0, _⟩ => show win0_0.index t (0 : Fin 3) * 8 + 1 * (j 0).val = win0_3.index t (0 : Fin 3) * 8 + 1 * (j 0).val; omega
    | ⟨1, _⟩ => show win0_0.index t (1 : Fin 3) * 196 + 1 * n.val = n.val; omega
    | ⟨2, _⟩ => show win0_0.index t (2 : Fin 3) * 128 + 1 * k.val = k.val; omega
  · show (j 2).val = win0_3.index t (2 : Fin 3) * 2000 + 1 * (j 2).val
    omega

/-- An index of the output array is in point `t`'s block iff each coordinate is in the block's range on its axis. -/
theorem mem_blk (t : Fin cfg0.N) (i : S64x1x2000.Idx) :
    i ∈ ((cfg0.win 3).blk t).view.set ↔ ∀ a : Fin 3, win0_3.index t a * S8x1x2000.size a ≤ (i a).val ∧ (i a).val < win0_3.index t a * S8x1x2000.size a + S8x1x2000.size a := by
  show i ∈ ((View.whole main_v9).slice (win0_3.rect t)).set ↔ _
  rw [View.set_slice_whole, Rect.mem_set_unit]
  exact Iff.rfl

/-- Every index of the output array is in the block of the point that handles its image: point `i 0 / 8`. -/
theorem cover (i : S64x1x2000.Idx) : ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 2000 := (i 2).isLt
  have hN : grid0.N = 8 := Gen.N_0
  have ht : (i 0).val / 8 < grid0.N := by omega
  refine ⟨⟨(i 0).val / 8, ht⟩, flush0_3 _, ?_⟩
  rw [mem_blk]
  obtain ⟨-, -, -, -, -, -, -, e7, e8, e9⟩ := idx_facts ⟨(i 0).val / 8, ht⟩
  have e7' : win0_3.index ⟨(i 0).val / 8, ht⟩ (0 : Fin 3) = (i 0).val / 8 := e7
  intro a
  match a with
  | ⟨0, _⟩ => show win0_3.index ⟨(i 0).val / 8, ht⟩ (0 : Fin 3) * 8 ≤ (i 0).val ∧ (i 0).val < win0_3.index ⟨(i 0).val / 8, ht⟩ (0 : Fin 3) * 8 + 8; omega
  | ⟨1, _⟩ => show win0_3.index ⟨(i 0).val / 8, ht⟩ (1 : Fin 3) * 1 ≤ (i 1).val ∧ (i 1).val < win0_3.index ⟨(i 0).val / 8, ht⟩ (1 : Fin 3) * 1 + 1; omega
  | ⟨2, _⟩ => show win0_3.index ⟨(i 0).val / 8, ht⟩ (2 : Fin 3) * 2000 ≤ (i 2).val ∧ (i 2).val < win0_3.index ⟨(i 0).val / 8, ht⟩ (2 : Fin 3) * 2000 + 2000; omega

/-- THE OUTPUT ARRAY after the run is the array function of the staged arrays. -/
theorem final (c : Dev nD) : (dats m 0 c).arrAt 3 cfg0.N = arrFn (V m c main_v1) (V m c main_v8) (V m c main_v6) :=
  (dats m 0 c).arrAt_eq_of_cover 3 _ (fun t _ => flushed_eq m c t) cover

end Cert.KernelIdeal.ArrayValue

end
-- ==== Proof.KernelHostApply.lean ====
/-
  The staged arrays read at an index: the transposed prototype matrix at (k, p) is the prototype matrix at (p, k); the
  squared norms at (0, p) are 0 + Σ_k pm(p,k)·pm(p,k); and every entry of the re-laid images, and of the prototype
  matrix, is an entry of the corresponding argument array.
-/
import proofs.«129197_j55980603736178_2_alg».proof.Proof.KernelHost

noncomputable section

namespace Cert.KernelIdeal.HostSide

open Cert.KernelIdeal Cert.KernelIdeal.Gen Idealize.ShloMosaic Idealize.ShloMosaic.ValueIdx

/-- The transposed prototype matrix at (k, p) is the prototype matrix at (p, k): narrowing is the identity here. -/
theorem pTOf_apply (P : FVec Ideal S1x200x10x128 .f32) (k : Fin 128) (p : Fin 2000) : pTOf P (ix2 k p) = pmOf P (ix2 p k) := by
  unfold pTOf
  exact transpose_apply [1, 0] (truncf .bf16 (pmOf P) bitsLt_bf16_f32) transposes_S2000x128_S128x2000_1_0 (ix2 k p) (ix2 p k) (fun b => match b with
    | ⟨0, _⟩ => rfl
    | ⟨1, _⟩ => rfl)

/-- The squared norm of prototype `p`: the host's sum over the 128 channels, from its zero initial value. -/
theorem psqOf_apply (P : FVec Ideal S1x200x10x128 .f32) (p : Fin 2000) :
    psqOf P (ix2 (0 : Fin 1) p) = Ideal.ofBits .f32 0x00000000#32 + ∑ k : Fin 128, pmOf P (ix2 p k) * pmOf P (ix2 p k) := by
  unfold psqOf
  refine (shapeCast_apply _ shapeCasts_S2000x1_S1x2000 (ix2 (0 : Fin 1) p) (ix2 p (0 : Fin 1)) (by
    rw [Shape.rowMajor_val_two, Shape.rowMajor_val_two]; show p.val * 1 + 0 = 0 * 2000 + p.val; omega)).trans ?_
  refine (broadcastInDim_apply _ bcast_S2000_S2000x1_0 _ (ix2 p (0 : Fin 1)) (ix1 p) (fun a => match a with
    | ⟨0, _⟩ => by show p.val = if (2000 : Nat) = 1 then 0 else p.val; rw [if_neg (by decide)])).trans ?_
  simp only [Host.reduceAdd, Ideal.hostReduceAdd_def]
  rw [Ideal.hostReduceAdd_single reducesTo_S2000x128_S2000_d1 (by decide)]
  refine congrArg (_ + ·) (Finset.sum_congr rfl fun k _ => ?_)
  show (mulf (pmOf P) (pmOf P)) _ = (mulf (pmOf P) (pmOf P)) (ix2 p k)
  exact congrArg (mulf (pmOf P) (pmOf P)) (funext fun a => Fin.ext (by match a with | ⟨0, _⟩ => rfl | ⟨1, _⟩ => rfl))

/-- Every entry of the re-laid images is an entry of the image argument. -/
theorem zfOf_entry (Z : FVec Ideal S64x128x14x14 .f32) (i : S64x196x128.Idx) : ∃ j, zfOf Z i = Z j := ⟨_, rfl⟩

/-- Every entry of the prototype matrix is an entry of the prototype argument. -/
theorem pmOf_entry (P : FVec Ideal S1x200x10x128 .f32) (i : S2000x128.Idx) : ∃ j, pmOf P i = P j := ⟨_, rfl⟩

end Cert.KernelIdeal.HostSide

end
-- ==== Proof.KernelRun.lean ====
/-
  The idealized kernel's run, read: every weakly fair execution ends with the result array [64, 2000] holding, at (b, p),
  image `b`'s log-ratio against prototype `p` — the output array of the region, with its unit axis dropped by the host
  reshape that follows the region — and with the argument arrays unchanged.
-/
import proofs.«129197_j55980603736178_2_alg».proof.Proof.KernelArray
import proofs.«129197_j55980603736178_2_alg».proof.Proof.KernelHostApply

set_option maxRecDepth 16384

noncomputable section

namespace Cert.KernelIdeal.RunValue

open Cert.KernelIdeal Cert.KernelIdeal.Gen Cert.KernelIdeal.ArrayValue Cert.KernelIdeal.HostSide
open Idealize.ShloMosaic Idealize.ShloMosaic.TcCoe Idealize.SL.Sem Idealize.ShloMosaic.StableHlo Idealize.ShloMosaic.ValueIdx

/-- The program's result as a function of the two argument arrays: the region's output with the unit axis dropped. -/
def resultOf (Z : FVec Ideal S64x128x14x14 .f32) (P : FVec Ideal S1x200x10x128 .f32) : FVec Ideal S64x2000 .f32 :=
  shapeCast S64x2000 (arrFn (zfOf Z) (pTOf P) (psqOf P)) shapeCasts_S64x1x2000_S64x2000

variable (m : (ℓ : Loc nD τ sig) → Buf (Elt Ideal) ℓ) (ρ : Dev nD → PrngReg)

/-- What the host line after the region leaves in the result buffer. -/
theorem tail_eq (c : Dev nD) :
    Pipeline.afterTail₀ cfgs (dats m) 0 (V0 m) [hostOps1] c main_v10
      = resultOf (m ((c : Thread nD τ).loc main_arg0)) (m ((c : Thread nD τ).loc main_arg1)) := by
  unfold Pipeline.afterTail₀
  show StableHlo.after hostOps1 _ (Proc.devRef .tc main_v10) = _
  after_results
  unfold resultOf
  rw [← V_images m c, ← V_protoT m c, ← V_protoSq m c, ← final m c]
  exact congrArg (fun x => shapeCast S64x2000 x shapeCasts_S64x1x2000_S64x2000)
    (Pipeline.withArrays_arr spec0 launch0.win.arr_inj c _ _ 3)

/-- THE RUN: the result array ends at `resultOf` of the argument arrays, which end unchanged. -/
theorem run : θ_run defs (onTc (τ := τ) (main (F := Ideal))) ⟨m, fun _ => 0, ρ⟩ fun r => ∀ c : Dev nD,
      r.2.mem ((c.tc : Thread nD τ).loc main_v10) = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The result at (b, p), in terms of the re-laid images zf and the prototype matrix pm: the difference of logarithms at
    the square root of the clamped minimum over the positions of Σ_k zf(b,n,k)² + (0 + Σ_k pm(p,k)²) − 2·Σ_k zf(b,n,k)·pm(p,k). -/
theorem resultOf_apply (Z : FVec Ideal S64x128x14x14 .f32) (P : FVec Ideal S1x200x10x128 .f32) (b : Fin 64) (p : Fin 2000) :
    resultOf Z P (ix2 b p)
      = Cert.LogRatio.heatDiff ((Finset.univ : Finset (Fin 196)).fold min (Ideal.ofBits .f32 0x7F800000#32) (fun n =>
          ((∑ k : Fin 128, zfOf Z (ix3 b n k) * zfOf Z (ix3 b n k))
              + (Ideal.ofBits .f32 0x00000000#32 + ∑ k : Fin 128, pmOf P (ix2 p k) * pmOf P (ix2 p k)))
            - Ideal.ofBits .f32 0x40000000#32 * ∑ k : Fin 128, zfOf Z (ix3 b n k) * pmOf P (ix2 p k))) := by
  unfold resultOf
  refine (shapeCast_apply _ shapeCasts_S64x1x2000_S64x2000 (ix2 b p) (ix3 b (0 : Fin 1) p) (by
    rw [Shape.rowMajor_val_three, Shape.rowMajor_val_two]; show (b.val * 1 + 0) * 2000 + p.val = b.val * 2000 + p.val; omega)).trans ?_
  show distAt (zfOf Z) (pTOf P) (psqOf P) b p = _
  unfold distAt
  simp only [pTOf_apply, psqOf_apply]

end Cert.KernelIdeal.RunValue

end
-- ==== Proof.RefValue.lean ====
/-
  The reference read at an index. With zf = transpose(reshape z) : [64, 196, 128] and pm = reshape prototypes :
  [2000, 128], the reference's result at (b, p) is the maximum over the 196 positions n, folded from −∞, of
      log((√max(r,0) + 1) / (√max(r,0) + ε)),   r = (0 + Σ_k zf(b,n,k)²) + (0 + Σ_k pm(p,k)²) − 2·Σ_k zf(b,n,k)·pm(p,k).
-/
import proofs.«129197_j55980603736178_2_alg».proof.Proof.Gen.ReferenceIdeal.Read
import proofs.«129197_j55980603736178_2_alg».proof.Proof.LibLogRatio
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The raw squared distance as the reference writes it, from the re-laid images `zf` and the prototype matrix `pm`. -/
def rawRef (zf : FVec Ideal S64x196x128 .f32) (pm : FVec Ideal S2000x128 .f32) (b : Fin 64) (p : Fin 2000) (n : Fin 196) : EReal :=
  ((Ideal.ofBits .f32 0x00000000#32 + ∑ k : Fin 128, zf (ix3 b n k) * zf (ix3 b n k))
      + (Ideal.ofBits .f32 0x00000000#32 + ∑ k : Fin 128, pm (ix2 p k) * pm (ix2 p k)))
    - Ideal.ofBits .f32 0x40000000#32 * ∑ k : Fin 128, zf (ix3 b n k) * pm (ix2 p k)

/-- The reference's per-position heat map at (b, n, p): the quotient form of the log-ratio at the raw squared distance. -/
theorem heat_apply (Z : FVec Ideal S64x128x14x14 .f32) (P : FVec Ideal S1x200x10x128 .f32) (b : Fin 64) (n : Fin 196) (p : Fin 2000) :
    val_main_v25 (F := Ideal) Z P (ix3 b n p)
      = Cert.LogRatio.heatQuot (rawRef (val_main_v1 (F := Ideal) Z) (val_main_v3 (F := Ideal) P) b p n) := by
  have e5 : ∀ k : Fin 128, idx_main_v5 (idx_main_v6 (idx_main_v11 (ix3 b n p))) k = ix3 b n k := fun k =>
    funext fun a => Fin.ext (by match a with | ⟨0, _⟩ => rfl | ⟨1, _⟩ => rfl | ⟨2, _⟩ => rfl)
  have e8 : ∀ k : Fin 128, idx_main_v8 (idx_main_v10 (idx_main_v12 (ix3 b n p))) k = ix2 p k := fun k =>
    funext fun a => Fin.ext (by match a with | ⟨0, _⟩ => rfl | ⟨1, _⟩ => rfl)
  have el : ∀ k : Fin 128, lidx_main_v9 (ix3 b n p) k = ix3 b n k := fun k =>
    funext fun a => Fin.ext (by match a with | ⟨0, _⟩ => rfl | ⟨1, _⟩ => rfl | ⟨2, _⟩ => rfl)
  have er : ∀ k : Fin 128, ridx_main_v9 (ix3 b n p) k = ix2 p k := fun k =>
    funext fun a => Fin.ext (by match a with | ⟨0, _⟩ => rfl | ⟨1, _⟩ => rfl)
  rw [val_main_v25_apply, val_main_v24_apply, val_main_v21_apply, val_main_v23_apply, val_main_v19_apply, val_main_v18_apply,
    val_main_v20_apply, val_main_v22_apply, val_main_v17_apply, val_main_v16_apply, val_main_v13_apply, val_main_v15_apply,
    val_main_v14_apply, val_main_v11_apply, val_main_v12_apply, val_main_v6_apply, val_main_v10_apply, val_main_v5_apply,
    val_main_v8_apply, val_main_v9_apply]
  simp only [val_main_v4_apply, val_main_v7_apply, val_main_cst_apply, val_main_cst_0_apply, val_main_cst_1_apply, val_main_cst_2_apply,
    val_main_cst_3_apply, val_main_cst_4_apply, e5, e8, el, er,
    Ideal.ofBits_def, Ideal.addf_def, Ideal.subf_def, Ideal.mulf_def, Ideal.maximumf_def, Ideal.hostDivf_def,
    Ideal.hostUnary_log_def, Ideal.hostUnary_sqrt_def]
  rfl

/-- Position `n` of the reduced index (b, p) put back on the position axis is (b, n, p). -/
theorem lift_pos (h : S64x196x2000.Reduces [1] S64x2000) (b : Fin 64) (p : Fin 2000) (n : Fin (S64x196x2000.size 1)) :
    h.lift (ix2 b p) n = ix3 b (⟨n.val, n.isLt⟩ : Fin 196) p := by
  funext c; apply Fin.ext
  match c with
  | ⟨0, _⟩ => rfl
  | ⟨1, _⟩ => rfl
  | ⟨2, _⟩ => rfl

/-- THE REFERENCE'S RESULT at (b, p): the maximum over the positions, folded from the −∞ pattern, of the heat map. -/
theorem result_apply (Z : FVec Ideal S64x128x14x14 .f32) (P : FVec Ideal S1x200x10x128 .f32) (b : Fin 64) (p : Fin 2000) :
    val_main_v26 (F := Ideal) Z P (ix2 b p)
      = (Finset.univ : Finset (Fin 196)).fold max (Ideal.ofBits .f32 0xFF800000#32)
          (fun n => Cert.LogRatio.heatQuot (rawRef (val_main_v1 (F := Ideal) Z) (val_main_v3 (F := Ideal) P) b p n)) := by
  unfold val_main_v26
  have hred : S64x196x2000.Reduces [1] S64x2000 := by decide
  refine (Host.reduce_eq_fold_single (α := Ideal .f32) (FloatOps.maximumf (F := Ideal) (φ := .f32))
    (val_main_v25 (F := Ideal) Z P : FVec Ideal S64x196x2000 .f32) (val_main_cst_5 (F := Ideal) : FVec Ideal S_ .f32)
    reducesTo_S64x196x2000_S64x2000_d1 hred h_S_ (ix2 b p)).trans ?_
  have hf : (val_main_v25 (F := Ideal) Z P ∘ hred.lift (ix2 b p))
      = fun n : Fin 196 => Cert.LogRatio.heatQuot (rawRef (val_main_v1 (F := Ideal) Z) (val_main_v3 (F := Ideal) P) b p n) :=
    funext fun n => by
      show val_main_v25 (F := Ideal) Z P (hred.lift (ix2 b p) n) = _
      rw [lift_pos hred b p n]
      exact heat_apply Z P b ⟨n.val, n.isLt⟩ p
  exact congrArg (fun f => Finset.fold max (Ideal.ofBits .f32 0xFF800000#32) f (Finset.univ : Finset (Fin 196))) hf

end Cert.ReferenceIdeal.RefValue

end
-- ==== Proof.DistanceLaw.lean ====
/-
  The law that joins the two programs at one output element, over arrays whose entries are real numbers. Both read the
  196 raw squared distances r_n = Σ_k zf(b,n,k)² + Σ_k pm(p,k)² − 2·Σ_k zf(b,n,k)·pm(p,k); the kernel applies
  log(√max(·,0)+1) − log(√max(·,0)+ε) to their minimum, the reference takes the maximum of
  log((√max(·,0)+1)/(√max(·,0)+ε)) — equal because that map is antitone on the reals.
-/
import proofs.«129197_j55980603736178_2_alg».proof.Proof.LibLogRatio
import Idealize.ShloMosaic.Lib.ValueIdx

noncomputable section

namespace Cert.DistanceLaw

open Idealize.ShloMosaic Idealize.ShloMosaic.ValueIdx

/-- A finite sum of reals, embedded term by term in the extended reals, is the embedded sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- THE LAW at one output element, over arrays of real entries: the kernel's form (the difference of logarithms at the
    minimum of the raw squared distances, folded from +∞) is the reference's (the maximum, folded from −∞, of the logarithm
    of the quotient); the two spell the raw squared distance with and without the host sum's zero initial value. -/
theorem kernel_eq_reference_at (zf : (⟨3, ![64, 196, 128]⟩ : Shape).Idx → EReal) (pm : (⟨2, ![2000, 128]⟩ : Shape).Idx → EReal)
    (hz : ∀ i, ∃ r : ℝ, zf i = (r : EReal)) (hp : ∀ i, ∃ r : ℝ, pm i = (r : EReal)) (b : Fin 64) (p : Fin 2000) :
    Cert.LogRatio.heatDiff ((Finset.univ : Finset (Fin 196)).fold min (Ideal.ofBits .f32 0x7F800000#32) (fun n =>
        ((∑ k : Fin 128, zf (ix3 b n k) * zf (ix3 b n k))
            + (Ideal.ofBits .f32 0x00000000#32 + ∑ k : Fin 128, pm (ix2 p k) * pm (ix2 p k)))
          - Ideal.ofBits .f32 0x40000000#32 * ∑ k : Fin 128, zf (ix3 b n k) * pm (ix2 p k)))
      = (Finset.univ : Finset (Fin 196)).fold max (Ideal.ofBits .f32 0xFF800000#32) (fun n =>
        Cert.LogRatio.heatQuot (((Ideal.ofBits .f32 0x00000000#32 + ∑ k : Fin 128, zf (ix3 b n k) * zf (ix3 b n k))
            + (Ideal.ofBits .f32 0x00000000#32 + ∑ k : Fin 128, pm (ix2 p k) * pm (ix2 p k)))
          - Ideal.ofBits .f32 0x40000000#32 * ∑ k : Fin 128, zf (ix3 b n k) * pm (ix2 p k))) := by
  choose zr hzr using hz
  choose pr hpr using hp
  let x : Fin 196 → ℝ := fun n =>
    ((∑ k : Fin 128, zr (ix3 b n k) * zr (ix3 b n k)) + (∑ k : Fin 128, pr (ix2 p k) * pr (ix2 p k)))
      - 2 * ∑ k : Fin 128, zr (ix3 b n k) * pr (ix2 p k)
  have hK : (fun n : Fin 196 => ((∑ k : Fin 128, zf (ix3 b n k) * zf (ix3 b n k))
            + (Ideal.ofBits .f32 0x00000000#32 + ∑ k : Fin 128, pm (ix2 p k) * pm (ix2 p k)))
          - Ideal.ofBits .f32 0x40000000#32 * ∑ k : Fin 128, zf (ix3 b n k) * pm (ix2 p k))
      = fun n => ((x n : ℝ) : EReal) := by
    funext n
    simp only [hzr, hpr, Ideal.ofBits_zero_f32, zero_add, Cert.LogRatio.ofBits_two, ← EReal.coe_mul, coe_sum, ← EReal.coe_add, ← EReal.coe_sub]
    rfl
  have hR : (fun n : Fin 196 => Cert.LogRatio.heatQuot (((Ideal.ofBits .f32 0x00000000#32 + ∑ k : Fin 128, zf (ix3 b n k) * zf (ix3 b n k))
            + (Ideal.ofBits .f32 0x00000000#32 + ∑ k : Fin 128, pm (ix2 p k) * pm (ix2 p k)))
          - Ideal.ofBits .f32 0x40000000#32 * ∑ k : Fin 128, zf (ix3 b n k) * pm (ix2 p k)))
      = fun n => Cert.LogRatio.heatQuot ((x n : ℝ) : EReal) := by
    funext n
    simp only [hzr, hpr, Ideal.ofBits_zero_f32, zero_add, Cert.LogRatio.ofBits_two, ← EReal.coe_mul, coe_sum, ← EReal.coe_add, ← EReal.coe_sub]
    rfl
  rw [hK, hR, Cert.LogRatio.ofBits_posInf, Cert.LogRatio.ofBits_negInf]
  exact Cert.LogRatio.heatDiff_fold_min_eq_fold_max Finset.univ Finset.univ_nonempty x

end Cert.DistanceLaw

end
-- ==== Proof.Bridge.lean ====
/-
  The two programs compute one function of the argument arrays, when every entry of the arguments is a real number.
  The kernel's result at (b, p) and the reference's result at (b, p) are the two sides of the law of DistanceLaw, over
  the same re-laid images and the same prototype matrix (which the reference reaches through one more reshape).
-/
import proofs.«129197_j55980603736178_2_alg».proof.Proof.KernelRun
import proofs.«129197_j55980603736178_2_alg».proof.Proof.RefValue
import proofs.«129197_j55980603736178_2_alg».proof.Proof.DistanceLaw

noncomputable section

namespace Cert.Bridge

open Idealize.ShloMosaic Idealize.ShloMosaic.ValueIdx

/-- Two reshapes in a row are the one reshape to the last shape. -/
theorem shapeCast_comp {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The reference's re-laid images are the kernel's: the same reshape and transpose of the image argument. -/
theorem images_eq (Z : FVec Ideal Cert.KernelIdeal.S64x128x14x14 .f32) :
    Cert.ReferenceIdeal.Read.val_main_v1 (F := Ideal) Z = Cert.KernelIdeal.HostSide.zfOf Z := rfl

/-- The reference's prototype matrix, reached through [1, 2000, 128], is the kernel's, reshaped directly. -/
theorem protos_eq (P : FVec Ideal Cert.KernelIdeal.S1x200x10x128 .f32) :
    Cert.ReferenceIdeal.Read.val_main_v3 (F := Ideal) P = Cert.KernelIdeal.HostSide.pmOf P := by
  unfold Cert.ReferenceIdeal.Read.val_main_v3 Cert.ReferenceIdeal.Read.val_main_v2 Cert.KernelIdeal.HostSide.pmOf
  exact shapeCast_comp P _ _ _

/-- THE TWO RESULTS AGREE on arguments whose entries are all real numbers. -/
theorem result_eq (Z : FVec Ideal Cert.KernelIdeal.S64x128x14x14 .f32) (P : FVec Ideal Cert.KernelIdeal.S1x200x10x128 .f32)
    (hZ : ∀ i, ∃ r : ℝ, Z i = (r : EReal)) (hP : ∀ i, ∃ r : ℝ, P i = (r : EReal)) :
    Cert.ReferenceIdeal.Read.val_main_v26 (F := Ideal) Z P = Cert.KernelIdeal.RunValue.resultOf Z P := by
  funext i
  obtain ⟨b, p, rfl⟩ : ∃ (b : Fin 64) (p : Fin 2000), i = ix2 b p := ⟨i 0, i 1, eq_ix2 i⟩
  rw [Cert.ReferenceIdeal.RefValue.result_apply, Cert.KernelIdeal.RunValue.resultOf_apply, images_eq, protos_eq]
  unfold Cert.ReferenceIdeal.RefValue.rawRef
  have hz : ∀ i, ∃ r : ℝ, Cert.KernelIdeal.HostSide.zfOf Z i = (r : EReal) := fun i => by
    obtain ⟨j, hj⟩ := Cert.KernelIdeal.HostSide.zfOf_entry Z i
    rw [hj]; exact hZ j
  have hp : ∀ i, ∃ r : ℝ, Cert.KernelIdeal.HostSide.pmOf P i = (r : EReal) := fun i => by
    obtain ⟨j, hj⟩ := Cert.KernelIdeal.HostSide.pmOf_entry P i
    rw [hj]; exact hP j
  exact (Cert.DistanceLaw.kernel_eq_reference_at (Cert.KernelIdeal.HostSide.zfOf Z) (Cert.KernelIdeal.HostSide.pmOf P) hz hp b p).symm

end Cert.Bridge

end
-- ==== Proof.FiniteInputs.lean ====
import proofs.«129197_j55980603736178_2_alg».proof.Proof.Gen.Pre_finite_inputs
import Idealize.ShloMosaic.PureOps.Ideal
import Idealize.ShloMosaic.Lib.ReduceAll
import Idealize.ShloMosaic.Lib.ValueIdx
noncomputable section
namespace Cert.FiniteInputs
open Idealize.ShloMosaic

/-- The rank-0 shape has at most one index: an index is a function out of the empty set of axes. -/
instance subsingleton_scalar_idx : Subsingleton Cert.Pre_finite_inputs.S_.Idx :=
  ⟨fun a b => funext fun d => d.elim0⟩

/-- The IEEE single-precision pattern `0x7F800000` denotes `+∞`, the top extended real. -/
theorem ofBits_inf : Ideal.ofBits .f32 0x7F800000#32 = (⊤ : EReal) := by
  simp [Ideal.ofBits, Ideal.ieee]

/-- An extended real `x` whose absolute value `max x (-x)` compares strictly below `+∞` is a real number:
    at `x = ⊤` the absolute value is `⊤`, at `x = ⊥` it is `-⊥ = ⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the finiteness predicate holds of two arrays of extended reals, every entry of each is a real number. -/
theorem real_of_finite (z : FVec Ideal Cert.Pre_finite_inputs.S64x128x14x14 .f32) (p : FVec Ideal Cert.Pre_finite_inputs.S1x200x10x128 .f32)
    (h : Cert.Pre_finite_inputs.fn (F := Ideal) z p = fun _ => 1#1) :
    (∀ i, ∃ r : ℝ, z i = (r : EReal)) ∧ (∀ i, ∃ r : ℝ, p i = (r : EReal)) := by
  have h0 := congrFun h ValueIdx.ix0
  dsimp only [Cert.Pre_finite_inputs.fn] at h0
  obtain ⟨hz, hp⟩ := IntOp.andi_eq_one.1 h0
  refine ⟨fun i => ?_, fun i => ?_⟩
  · exact real_of_abs_lt_inf (z i) (Host.reduce_andi_all _ _ _ _ _ hz i)
  · exact real_of_abs_lt_inf (p i) (Host.reduce_andi_all _ _ _ _ _ hp i)

end Cert.FiniteInputs
end
-- ==== Proof.lean ====
/-
  The certificate. A batch of 64 images (128 channels on a 14 × 14 grid, read as 196 positions of 128 channels) is
  compared with 2000 prototypes of 128 channels. For image b and prototype p, with the squared Euclidean distance
  r(n) = ‖z(b,n,·)‖² + ‖proto(p,·)‖² − 2·⟨z(b,n,·), proto(p,·)⟩ of position n to the prototype,
    * the kernel computes log(d + 1) − log(d + ε) at d = √max(min_n r(n), 0), eight images per grid point;
    * the reference computes max_n log((d_n + 1) / (d_n + ε)) at d_n = √max(r(n), 0).
  Over the extended reals and finite inputs these agree: every r(n) is a real number, the logarithm of the quotient is the
  difference of the logarithms of its positive numerator and denominator, and d ↦ log((d + 1)/(d + ε)) decreases on d ≥ 0
  because 0 < ε ≤ 1, so its maximum over the positions is attained at the minimal distance.

  The three frame claims are the generated frame runs (the reference's is its generated run with the result dropped); the
  idealization rewrote nothing; the value claim pairs the kernel's run (KernelRun) with the reference's run, rewritten by
  the agreement of the arguments and by Bridge.result_eq under the finiteness of the inputs (FiniteInputs).
-/
import proofs.«129197_j55980603736178_2_alg».proof.Defs
import proofs.«129197_j55980603736178_2_alg».proof.Proof.Gen.Kernel
import proofs.«129197_j55980603736178_2_alg».proof.Proof.Gen.Kernel.Skeleton
import proofs.«129197_j55980603736178_2_alg».proof.Proof.Gen.Kernel.Launch
import proofs.«129197_j55980603736178_2_alg».proof.Proof.Gen.Kernel.Points
import proofs.«129197_j55980603736178_2_alg».proof.Proof.Gen.Kernel.Frame
import proofs.«129197_j55980603736178_2_alg».proof.Proof.Gen.KernelIdeal
import proofs.«129197_j55980603736178_2_alg».proof.Proof.Gen.KernelIdeal.Skeleton
import proofs.«129197_j55980603736178_2_alg».proof.Proof.Gen.KernelIdeal.Launch
import proofs.«129197_j55980603736178_2_alg».proof.Proof.Gen.KernelIdeal.Points
import proofs.«129197_j55980603736178_2_alg».proof.Proof.Gen.KernelIdeal.Frame
import proofs.«129197_j55980603736178_2_alg».proof.Proof.Gen.ReferenceIdeal
import proofs.«129197_j55980603736178_2_alg».proof.Proof.Gen.Pre_finite_inputs
import proofs.«129197_j55980603736178_2_alg».proof.Proof.Gen.ReferenceIdeal.Run
import proofs.«129197_j55980603736178_2_alg».proof.Proof.Gen.ReferenceIdeal.Read
import proofs.«129197_j55980603736178_2_alg».proof.Proof.Bridge
import proofs.«129197_j55980603736178_2_alg».proof.Proof.FiniteInputs
import Idealize.ShloMosaic.Adequacy
import Idealize.ShloMosaic.Init

noncomputable section

namespace Cert.Proof

open Idealize.ShloMosaic Idealize.SL.Sem

/-- The word-level kernel runs and keeps its arguments: the generated frame. -/
theorem frame_kernel : @Cert.frame_Kernel Cert.Kernel.Gen.facts Cert.Pre_finite_inputs.Gen.facts :=
  fun m ρ _ => Cert.Kernel.Gen.frame m ρ

/-- The idealized kernel runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on finite arguments both idealized programs end with the same result array. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.RunValue.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨?_, (h c).2⟩) (Cert.ReferenceIdeal.Value.run (F := Ideal) m' ρ')
  obtain ⟨hZ, hP⟩ := Cert.FiniteInputs.real_of_finite _ _ (hpre c)
  rw [(h c).1, Cert.ReferenceIdeal.Read.val_main_v26_eq, (hagree c).1, (hagree c).2]
  exact Cert.Bridge.result_eq _ _ hZ hP

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
